-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S192x64 : Shape := ⟨2, ![192, 64]⟩
abbrev S256x64 : Shape := ⟨2, ![256, 64]⟩
abbrev S320x64 : Shape := ⟨2, ![320, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S192x64 : S_.BroadcastsInDim S192x64 (![] : Fin 0 → Fin S192x64.rank)
  reducesTo_S192x64_S_d0_1 : S192x64.ReducesTo [0, 1] S_
  bcast_S_S256x64 : S_.BroadcastsInDim S256x64 (![] : Fin 0 → Fin S256x64.rank)
  reducesTo_S256x64_S_d0_1 : S256x64.ReducesTo [0, 1] S_
  bcast_S_S320x64 : S_.BroadcastsInDim S320x64 (![] : Fin 0 → Fin S320x64.rank)
  reducesTo_S320x64_S_d0_1 : S320x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S256x64 .f32) (main_arg9 : FVec F S64 .f32) (main_arg10 : FVec F S320x64 .f32) (main_arg11 : FVec F S64 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S320x64 .f32 := Host.absf main_arg10
  let main_cst_16 : FVec F S_ .f32 := constant S_ .f32 0x7F800000#32
  let main_v45 : FVec F S320x64 .f32 := broadcastInDim S320x64 ![] bcast_S_S320x64 main_cst_16
  let main_v46 : IVec S320x64 1 := cmpf .olt main_v44 main_v45
  let main_c_17 : IVec S_ 1 := constantI S_ 1 1#1
  let main_v47 : IVec S_ 1 := (fun x v => Host.reduce IntOp.andi x v reducesTo_S320x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S192x64 .f32) (main_arg7 : FVec F S64 .f32) (main_arg8 : FVec F S256x64 .f32) (main_arg9 : FVec F S64 .f32) (main_arg10 : FVec F S320x64 .f32) (main_arg11 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg6
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S128x64 .f32) (main_arg5 : FVec F S64 .f32) (main_arg6 : FVec F S192x64 .f32) (main_arg7 : FVec F S64 .f32) (main_arg8 : FVec F S256x64 .f32) (main_arg9 : FVec F S64 .f32) (main_arg10 : FVec F S320x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S192x64 : Shape := ⟨2, ![192, 64]⟩
abbrev S256x64 : Shape := ⟨2, ![256, 64]⟩
abbrev S320x64 : Shape := ⟨2, ![320, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S100000x128 : Shape := ⟨2, ![100000, 128]⟩
abbrev S5000x128 : Shape := ⟨2, ![5000, 128]⟩
abbrev S100000x192 : Shape := ⟨2, ![100000, 192]⟩
abbrev S5000x192 : Shape := ⟨2, ![5000, 192]⟩
abbrev S100000x256 : Shape := ⟨2, ![100000, 256]⟩
abbrev S5000x256 : Shape := ⟨2, ![5000, 256]⟩
abbrev S100000x320 : Shape := ⟨2, ![100000, 320]⟩
abbrev S5000x320 : Shape := ⟨2, ![5000, 320]⟩
abbrev S100000x384 : Shape := ⟨2, ![100000, 384]⟩

abbrev nBuf : Space → Nat
  | .hbm => 151
  | .vmem => 60
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S128x64, .f32⟩
  | 5 => ⟨S64, .f32⟩
  | 6 => ⟨S192x64, .f32⟩
  | 7 => ⟨S64, .f32⟩
  | 8 => ⟨S256x64, .f32⟩
  | 9 => ⟨S64, .f32⟩
  | 10 => ⟨S320x64, .f32⟩
  | 11 => ⟨S64, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x128, .f32⟩
  | 75 => ⟨S100000x64, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x64, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S100000x64, .f32⟩
  | 93 => ⟨S100000x192, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x256, .f32⟩
  | 113 => ⟨S100000x64, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x320, .f32⟩
  | 4 => ⟨S100000x64, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x64, .f32⟩
  | 14 => ⟨S1700000x64, .f32⟩
  | 15 => ⟨S1700000x64, .f32⟩
  | 16 => ⟨S_, .f32⟩
  | 17 => ⟨S100000x64, .f32⟩
  | 18 => ⟨S1700000x1, .i32⟩
  | 19 => ⟨S100000x64, .f32⟩
  | 20 => ⟨S1x64, .f32⟩
  | 21 => ⟨S100000x64, .f32⟩
  | 22 => ⟨S100000x384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x192, .f32⟩
  | .local _ .vmem, ⟨25, _⟩ => ⟨S5000x192, .f32⟩
  | .local _ .vmem, ⟨26, _⟩ => ⟨S192x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x256, .f32⟩
  | .local _ .vmem, ⟨37, _⟩ => ⟨S5000x256, .f32⟩
  | .local _ .vmem, ⟨38, _⟩ => ⟨S256x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x320, .f32⟩
  | .local _ .vmem, ⟨49, _⟩ => ⟨S5000x320, .f32⟩
  | .local _ .vmem, ⟨50, _⟩ => ⟨S320x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_c_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_19 : Ref sig .tc := ⟨.hbm, 133, rfl⟩
abbrev main_v98 : Ref sig .tc := ⟨.hbm, 134, rfl⟩
abbrev main_v99 : Ref sig .tc := ⟨.hbm, 135, rfl⟩
abbrev main_c_20 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_21 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg1_1 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem3_0 : DmaSem sig := 58
abbrev cc9_sem3_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x320 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S320x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S100000x64_S100000x64_S100000x128_d1 : Shape.Concatenates [S100000x64, S100000x64] S100000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  concatenates_S100000x128_S100000x64_S100000x192_d1 : Shape.Concatenates [S100000x128, S100000x64] S100000x192 1
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x64_S192x64_0_0 : ∀ a, (![0, 0] : Fin 2 → Nat) a + S192x64.size a ≤ S192x64.size a
  h_S192x64 : 0 < S192x64.numel
  concatenates_S100000x192_S100000x64_S100000x256_d1 : Shape.Concatenates [S100000x192, S100000x64] S100000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  concatenates_S100000x256_S100000x64_S100000x320_d1 : Shape.Concatenates [S100000x256, S100000x64] S100000x320 1
  inb_S5000x320_S5000x320_0_0 : ∀ a, (![0, 0] : Fin 2 → Nat) a + S5000x320.size a ≤ S5000x320.size a
  h_S5000x320 : 0 < S5000x320.numel
  shapeCasts_S5000x320_S5000x320 : S5000x320.ShapeCasts S5000x320
  inb_S320x64_S320x64_0_0 : ∀ a, (![0, 0] : Fin 2 → Nat) a + S320x64.size a ≤ S320x64.size a
  h_S320x64 : 0 < S320x64.numel
  concatenates_S100000x320_S100000x64_S100000x384_d1 : Shape.Concatenates [S100000x320, S100000x64] S100000x384 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x128_S128x64_S5000x64_1_0_0_1_n_n_wf : DotDims.WF S5000x128 S128x64 S5000x64 [1] [0] [0] [1] [] []
  dot_S5000x192_S192x64_S5000x64_1_0_0_1_n_n_wf : DotDims.WF S5000x192 S192x64 S5000x64 [1] [0] [0] [1] [] []
  dot_S5000x256_S256x64_S5000x64_1_0_0_1_n_n_wf : DotDims.WF S5000x256 S256x64 S5000x64 [1] [0] [0] [1] [] []
  dot_S5000x320_S320x64_S5000x64_1_0_0_1_n_n_wf : DotDims.WF S5000x320 S320x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x192.size a ≤ S100000x192.size a
  hwx4_0 : ∀ i : grid4.Coords, EltTy.bits .f32 = 32 ∨ (Rect.block (s := S100000x192) S5000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x64.size a ≤ S192x64.size a
  hwx4_1 : ∀ i : grid4.Coords, EltTy.bits .f32 = 32 ∨ (Rect.block (s := S192x64) S192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S100000x256.size a
  hwx6_0 : ∀ i : grid6.Coords, EltTy.bits .f32 = 32 ∨ (Rect.block (s := S100000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x64.size a ≤ S256x64.size a
  hwx6_1 : ∀ i : grid6.Coords, EltTy.bits .f32 = 32 ∨ (Rect.block (s := S256x64) S256x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x320.size a ≤ S100000x320.size a
  hwx8_0 : ∀ i : grid8.Coords, EltTy.bits .f32 = 32 ∨ (Rect.block (s := S100000x320) S5000x320.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S320x64.size a ≤ S320x64.size a
  hwx8_1 : ∀ i : grid8.Coords, EltTy.bits .f32 = 32 ∨ (Rect.block (s := S320x64) S320x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x320_S320x64_S5000x64_1_0_0_1_n_n : DotDims S5000x320 S320x64 S5000x64 where
  lhsContracting := [1]
  rhsContracting := [0]
  lhsNonContracting := [0]
  rhsNonContracting := [1]
  lhsBatch := []
  rhsBatch := []
  wf := dot_S5000x320_S320x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S5000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v80) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S256x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v94) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v96) S5000x320.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S320x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v97) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v95) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v109) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v110) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v111) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S192x64 : Shape := ⟨2, ![192, 64]⟩
abbrev S256x64 : Shape := ⟨2, ![256, 64]⟩
abbrev S320x64 : Shape := ⟨2, ![320, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S100000x192 : Shape := ⟨2, ![100000, 192]⟩
abbrev S100000x256 : Shape := ⟨2, ![100000, 256]⟩
abbrev S100000x320 : Shape := ⟨2, ![100000, 320]⟩
abbrev S100000x384 : Shape := ⟨2, ![100000, 384]⟩

abbrev nBuf : Space → Nat
  | .hbm => 180
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S128x64, .f32⟩
  | 5 => ⟨S64, .f32⟩
  | 6 => ⟨S192x64, .f32⟩
  | 7 => ⟨S64, .f32⟩
  | 8 => ⟨S256x64, .f32⟩
  | 9 => ⟨S64, .f32⟩
  | 10 => ⟨S320x64, .f32⟩
  | 11 => ⟨S64, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x128, .f32⟩
  | 80 => ⟨S100000x64, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S1700000x1, .f32⟩
  | 91 => ⟨S1700000x64, .f32⟩
  | 92 => ⟨S1700000x64, .f32⟩
  | 93 => ⟨S_, .f32⟩
  | 94 => ⟨S100000x64, .f32⟩
  | 95 => ⟨S1700000x1, .i32⟩
  | 96 => ⟨S100000x64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x192, .f32⟩
  | 105 => ⟨S100000x64, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x1, .f32⟩
  | 116 => ⟨S1700000x64, .f32⟩
  | 117 => ⟨S1700000x64, .f32⟩
  | 118 => ⟨S_, .f32⟩
  | 119 => ⟨S100000x64, .f32⟩
  | 120 => ⟨S1700000x1, .i32⟩
  | 121 => ⟨S100000x64, .f32⟩
  | 122 => ⟨S1x64, .f32⟩
  | 123 => ⟨S100000x64, .f32⟩
  | 124 => ⟨S100000x64, .f32⟩
  | 125 => ⟨S100000x64, .f32⟩
  | 126 => ⟨S_, .f32⟩
  | 127 => ⟨S100000x64, .f32⟩
  | _ => ⟨S100000x64, .f32⟩

abbrev hbmTy0_1 (i : Nat) : BufTy := match i % 128 with
  | 0 => ⟨S100000x64, .f32⟩
  | 1 => ⟨S100000x256, .f32⟩
  | 2 => ⟨S100000x64, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x64, .f32⟩
  | 12 => ⟨S1700000x1, .f32⟩
  | 13 => ⟨S1700000x64, .f32⟩
  | 14 => ⟨S1700000x64, .f32⟩
  | 15 => ⟨S_, .f32⟩
  | 16 => ⟨S100000x64, .f32⟩
  | 17 => ⟨S1700000x1, .i32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x320, .f32⟩
  | 27 => ⟨S100000x64, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000x64, .f32⟩
  | 37 => ⟨S1700000x1, .f32⟩
  | 38 => ⟨S1700000x64, .f32⟩
  | 39 => ⟨S1700000x64, .f32⟩
  | 40 => ⟨S_, .f32⟩
  | 41 => ⟨S100000x64, .f32⟩
  | 42 => ⟨S1700000x1, .i32⟩
  | 43 => ⟨S100000x64, .f32⟩
  | 44 => ⟨S1x64, .f32⟩
  | 45 => ⟨S100000x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call2_cst : Ref sig .tc := ⟨.hbm, 101, rfl⟩
abbrev main_call2_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_c_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_16 : Ref sig .tc := ⟨.hbm, 131, rfl⟩
abbrev main_v93 : Ref sig .tc := ⟨.hbm, 132, rfl⟩
abbrev main_v94 : Ref sig .tc := ⟨.hbm, 133, rfl⟩
abbrev main_c_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_18 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_call4_cst : Ref sig .tc := ⟨.hbm, 151, rfl⟩
abbrev main_call4_v0 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_19 : Ref sig .tc := ⟨.hbm, 156, rfl⟩
abbrev main_v113 : Ref sig .tc := ⟨.hbm, 157, rfl⟩
abbrev main_v114 : Ref sig .tc := ⟨.hbm, 158, rfl⟩
abbrev main_c_20 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_21 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_call5_cst : Ref sig .tc := ⟨.hbm, 176, rfl⟩
abbrev main_call5_v0 : Ref sig .tc := ⟨.hbm, 177, rfl⟩
abbrev main_v130 : Ref sig .tc := ⟨.hbm, 178, rfl⟩
abbrev main_v131 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  concatenates_S100000x128_S100000x64_S100000x192_d1 : Shape.Concatenates [S100000x128, S100000x64] S100000x192 1
  concatenates_S100000x192_S100000x64_S100000x256_d1 : Shape.Concatenates [S100000x192, S100000x64] S100000x256 1
  concatenates_S100000x256_S100000x64_S100000x320_d1 : Shape.Concatenates [S100000x256, S100000x64] S100000x320 1
  concatenates_S100000x320_S100000x64_S100000x384_d1 : Shape.Concatenates [S100000x320, S100000x64] S100000x384 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x64_S100000x64_1_0_0_1_n_n_wf : DotDims.WF S100000x128 S128x64 S100000x64 [1] [0] [0] [1] [] []
  dot_S100000x192_S192x64_S100000x64_1_0_0_1_n_n_wf : DotDims.WF S100000x192 S192x64 S100000x64 [1] [0] [0] [1] [] []
  dot_S100000x256_S256x64_S100000x64_1_0_0_1_n_n_wf : DotDims.WF S100000x256 S256x64 S100000x64 [1] [0] [0] [1] [] []
  dot_S100000x320_S320x64_S100000x64_1_0_0_1_n_n_wf : DotDims.WF S100000x320 S320x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x320_S320x64_S100000x64_1_0_0_1_n_n : DotDims S100000x320 S320x64 S100000x64 where
  lhsContracting := [1]
  rhsContracting := [0]
  lhsNonContracting := [0]
  rhsNonContracting := [1]
  lhsBatch := []
  rhsBatch := []
  wf := dot_S100000x320_S320x64_S100000x64_1_0_0_1_n_n_wf

class Facts : Prop extends Facts₀ where

variable [Facts]
-- ==== Proof.LibCat2.lean ====
/-
  A concatenate of two arrays with the operands as plain arguments.

  The printed `concatenate t a [⟨s₁, x₁⟩, ⟨s₂, x₂⟩] h` carries its operands inside a list whose shapes the proof `h`
  speaks about, so a rewriting pass that must keep `h`'s type in step will not rewrite under the list.  `cat2` is the same
  array with `x₁`, `x₂` as ordinary arguments after `h` (whose type mentions the shapes only); `cat2_fold` is the
  definitional equation between the two, oriented for folding the printed form.
-/
import Idealize.ShloMosaic.PureOps

namespace Cert.Lib

open Idealize.ShloMosaic

/-- `x₁` and `x₂` joined along axis `a` into shape `t`. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The printed two-operand concatenate is `cat2` of its operands. -/
theorem cat2_fold {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ h x₁ x₂ := rfl

end Cert.Lib
-- ==== Proof.LibRegionAsOp.lean ====
/-
  A pipelined region seen from outside is one operation on the core's buffers.

  When a region returns, the core's buffer contents are the entry contents with each of the region's arrays
  replaced by what the pipeline leaves in it (`Pipeline.withArrays`).  If every array but one ends as it was
  entered (the input windows) and the remaining one ends at the value some operation `op` — one that writes
  exactly that array's buffer — computes from the entry contents, then the region's effect on the whole
  valuation IS `op.result`.  A program that alternates host operations and such regions is then, as far as
  buffer contents go, a straight line of operations, and the contents after it are `StableHlo.after` of that
  line.  Also: the fold over a concatenation of two lines is the fold over the second after the first.
-/
import Idealize.ShloMosaic.Lib.Pipeline.FrameSuffix
import Idealize.ShloMosaic.Lib.StableHlo.Run

noncomputable section

namespace Cert.Lib

open Idealize.ShloMosaic Idealize.ShloMosaic.TcCoe Idealize.ShloMosaic.Pipeline

variable {nD : Nat} {τ : Topo} {sig : RefSig} {Val : EltTy → Type}

/-- The region's exit contents are one operation's result of its entry contents: the operation writes exactly
    the buffer of array `wo` (`hw`), the pipeline leaves in that array the operation's value (`hout`), and
    every other array of the region ends holding its entry contents (`hin`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo; exact hout
    · rw [hin w hwo, op.result_of_not_mem V]
      rw [hw, Finset.mem_singleton]
      exact fun e => hwo (hinj (Proc.devRef_injective _ e))
  · have hb : b ∉ op.writes := by
      rw [hw, Finset.mem_singleton]
      exact fun e => h ⟨wo, e.symm⟩
    rw [op.result_of_not_mem V hb]
    unfold withArrays
    rw [dif_neg h]

/-- The contents after two lines run one after the other. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line. -/
theorem after_singleton (op : HloOp τ sig Val) (V : Valuation τ sig Val) :
    StableHlo.after [op] V = op.result V := rfl

end Cert.Lib

end
-- ==== Proof.Mat0.lean ====
/-
  Region 0 of the kernel program: a [100000, 64] array times a [64, 64] array, twenty row tiles of 5000 rows.

  At a grid point the body loads its 5000 × 64 tile of the left factor and the whole right factor, forms their
  product into a zero accumulator and stores the 5000 × 64 result tile (the roundings to a narrower format on the way
  in are the identity on the extended reals).  Entry (r, q) of that tile is the sum over k of left(r, k) · right(k, q).
  Tile t of the left factor and of the result are rows 5000·t … 5000·t + 4999, the right factor's one tile is all of
  it, so what point t writes back is tile t of ONE array: `prod x w`, whose entry (i₀, i₁) is the sum over k of
  x(i₀, k) · w(k, i₁).  The twenty tiles cover all 100000 rows (row i₀ lies in tile i₀ / 5000), hence after the
  region the result array is `prod` of the two operand arrays as the region found them.
-/
import proofs.«117244_j88579405512834_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mat0

open Cert.KernelIdeal Cert.KernelIdeal.Gen Idealize.ShloMosaic Idealize.ShloMosaic.TcCoe Idealize.SL.Sem

/-- Row `i 0`, column `k`: the left factor's entry that output entry `i` meets at `k`. -/
abbrev lix (i : S100000x64.Idx) (k : Fin 64) : S100000x64.Idx := fun a => match a with
  | ⟨0, _⟩ => ⟨(i 0).val, (i 0).isLt⟩
  | ⟨1, _⟩ => ⟨k.val, k.isLt⟩
/-- Row `k`, column `i 1`: the right factor's entry that output entry `i` meets at `k`. -/
abbrev rix (i : S100000x64.Idx) (k : Fin 64) : S64x64.Idx := fun a => match a with
  | ⟨0, _⟩ => ⟨k.val, k.isLt⟩
  | ⟨1, _⟩ => ⟨(i 1).val, (i 1).isLt⟩
/-- The same two inside one 5000-row tile. -/
abbrev lb (j : S5000x64.Idx) (k : Fin 64) : S5000x64.Idx := fun a => match a with
  | ⟨0, _⟩ => ⟨(j 0).val, (j 0).isLt⟩
  | ⟨1, _⟩ => ⟨k.val, k.isLt⟩
abbrev rb (j : S5000x64.Idx) (k : Fin 64) : S64x64.Idx := fun a => match a with
  | ⟨0, _⟩ => ⟨k.val, k.isLt⟩
  | ⟨1, _⟩ => ⟨(j 1).val, (j 1).isLt⟩

/-- The product of a [100000, 64] array and a [64, 64] array on the extended reals, entry by entry. -/
def prod (x : (⟨S100000x64, .f32⟩ : BufTy).Contents (Elt Ideal)) (w : (⟨S64x64, .f32⟩ : BufTy).Contents (Elt Ideal)) :
    (⟨S100000x64, .f32⟩ : BufTy).Contents (Elt Ideal) :=
  fun i => ∑ k : Fin 64, x (lix i k) * w (rix i k)

/-! ## One tile: the body's stored value at an entry -/

theorem lhs0 (j : S5000x64.Idx) (q : dot_S5000x64_S64x64_S5000x64_1_0_0_1_n_n.contr.Idx) : (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1 (j : S5000x64.Idx) (q : dot_S5000x64_S64x64_S5000x64_1_0_0_1_n_n.contr.Idx) : (dot_S5000x64_S64x64_S5000x64_1_0_0_1_n_n.lhsIdx j q 1).val = (q ⟨0, by decide⟩).val :=
  dot_S5000x64_S64x64_S5000x64_1_0_0_1_n_n.lhsIdx_val_of_single rfl j q
theorem rhs0 (j : S5000x64.Idx) (q : dot_S5000x64_S64x64_S5000x64_1_0_0_1_n_n.contr.Idx) : (dot_S5000x64_S64x64_S5000x64_1_0_0_1_n_n.rhsIdx j q 0).val = (q ⟨0, by decide⟩).val :=
  dot_S5000x64_S64x64_S5000x64_1_0_0_1_n_n.rhsIdx_val_of_single rfl j q
theorem rhs1 (j : S5000x64.Idx) (q : dot_S5000x64_S64x64_S5000x64_1_0_0_1_n_n.contr.Idx) : (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `j` of the stored tile is the sum over `k` of the loaded left tile at (j₀, k) times the right factor at (k, j₁):
    the product into the zero accumulator is that sum, and the contraction's one axis is indexed by `Fin 64`. -/
theorem pay_apply (x0 : Vec Ideal S5000x64 .f32) (x1 : Vec Ideal S64x64 .f32) (j : S5000x64.Idx) :
    k0_pay1 (F := Ideal) x0 x1 j = ∑ k : Fin 64, x0 (lb j k) * x1 (rb j k) := by
  unfold k0_pay1
  simp only [shapeCast_self, matmul]
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = lb j k := funext fun a => Fin.ext (by
    match a with
    | ⟨0, _⟩ => exact lhs0 _ _
    | ⟨1, _⟩ => exact (lhs1 _ _).trans hk)
  have er : dot_S5000x64_S64x64_S5000x64_1_0_0_1_n_n.rhsIdx j ((ValueIdx.contrEquiv1 dot_S5000x64_S64x64_S5000x64_1_0_0_1_n_n 64 rfl rfl).symm k) = rb j k := funext fun a => Fin.ext (by
    match a with
    | ⟨0, _⟩ => exact (rhs0 _ _).trans hk
    | ⟨1, _⟩ => exact rhs1 _ _)
  show x0 (dot_S5000x64_S64x64_S5000x64_1_0_0_1_n_n.lhsIdx j ((ValueIdx.contrEquiv1 dot_S5000x64_S64x64_S5000x64_1_0_0_1_n_n 64 rfl rfl).symm k)) * x1 (dot_S5000x64_S64x64_S5000x64_1_0_0_1_n_n.rhsIdx j ((ValueIdx.contrEquiv1 dot_S5000x64_S64x64_S5000x64_1_0_0_1_n_n 64 rfl rfl).symm k)) = _
  rw [el, er]

/-! ## From tiles to the array -/

theorem hz : (![0, 0] : Fin 2 → Nat) = fun _ => 0 := funext fun a => by fin_cases a <;> rfl

/-- The three index maps over the grid: the left factor and the result move down one tile per point and have one
    tile across; the right factor stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is tile `t` of the product of the two operand arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  refine (pay_apply _ _ j).trans ?_
  show ∑ k : Fin 64, (show (⟨S100000x64, .f32⟩ : BufTy).Contents (Elt Ideal) from V c main_arg0) (((cfg0.win 0).blk t).view.emb (lb j k)) * (show (⟨S64x64, .f32⟩ : BufTy).Contents (Elt Ideal) from V c main_arg2) (((cfg0.win 1).blk t).view.emb (rb j k))
    = ∑ k : Fin 64, (show (⟨S100000x64, .f32⟩ : BufTy).Contents (Elt Ideal) from V c main_arg0) (lix (((cfg0.win 2).blk t).view.emb j) k) * (show (⟨S64x64, .f32⟩ : BufTy).Contents (Elt Ideal) from V c main_arg2) (rix (((cfg0.win 2).blk t).view.emb j) k)
  refine Finset.sum_congr rfl fun k _ => ?_
  have h0 : ((cfg0.win 0).blk t).view.emb (lb j k) = lix (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (rb j k) = rix (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- An entry of the result array is in point `t`'s tile iff each coordinate is in the tile's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- Every entry is in some written tile: row `i 0` is in tile `i 0 / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have hlt : (i 0).val / 5000 < grid0.N := by omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    have e4' : win0_2.index ⟨(i 0).val / 5000, hlt⟩ (0 : Fin 2) = (i 0).val / 5000 := e4
    omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    omega

/-- After the region the result array is the product of the operand arrays as the region found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Mat0

end
-- ==== Proof.Mat2.lean ====
/-
  Region 2 of the kernel program: a [100000, 128] array times a [128, 64] array, twenty row tiles of 5000 rows.

  At a grid point the body loads its 5000 × 128 tile of the left factor and the whole right factor, forms their
  product into a zero accumulator and stores the 5000 × 64 result tile (the roundings to a narrower format on the way
  in are the identity on the extended reals).  Entry (r, q) of that tile is the sum over k of left(r, k) · right(k, q).
  Tile t of the left factor and of the result are rows 5000·t … 5000·t + 4999, the right factor's one tile is all of
  it, so what point t writes back is tile t of ONE array: `prod x w`, whose entry (i₀, i₁) is the sum over k of
  x(i₀, k) · w(k, i₁).  The twenty tiles cover all 100000 rows (row i₀ lies in tile i₀ / 5000), hence after the
  region the result array is `prod` of the two operand arrays as the region found them.
-/
import proofs.«117244_j88579405512834_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mat2

open Cert.KernelIdeal Cert.KernelIdeal.Gen Idealize.ShloMosaic Idealize.ShloMosaic.TcCoe Idealize.SL.Sem

/-- Row `i 0`, column `k`: the left factor's entry that output entry `i` meets at `k`. -/
abbrev lix (i : S100000x64.Idx) (k : Fin 128) : S100000x128.Idx := fun a => match a with
  | ⟨0, _⟩ => ⟨(i 0).val, (i 0).isLt⟩
  | ⟨1, _⟩ => ⟨k.val, k.isLt⟩
/-- Row `k`, column `i 1`: the right factor's entry that output entry `i` meets at `k`. -/
abbrev rix (i : S100000x64.Idx) (k : Fin 128) : S128x64.Idx := fun a => match a with
  | ⟨0, _⟩ => ⟨k.val, k.isLt⟩
  | ⟨1, _⟩ => ⟨(i 1).val, (i 1).isLt⟩
/-- The same two inside one 5000-row tile. -/
abbrev lb (j : S5000x64.Idx) (k : Fin 128) : S5000x128.Idx := fun a => match a with
  | ⟨0, _⟩ => ⟨(j 0).val, (j 0).isLt⟩
  | ⟨1, _⟩ => ⟨k.val, k.isLt⟩
abbrev rb (j : S5000x64.Idx) (k : Fin 128) : S128x64.Idx := fun a => match a with
  | ⟨0, _⟩ => ⟨k.val, k.isLt⟩
  | ⟨1, _⟩ => ⟨(j 1).val, (j 1).isLt⟩

/-- The product of a [100000, 128] array and a [128, 64] array on the extended reals, entry by entry. -/
def prod (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (lix i k) * w (rix i k)

/-! ## One tile: the body's stored value at an entry -/

theorem lhs0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem rhs0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem rhs1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `j` of the stored tile is the sum over `k` of the loaded left tile at (j₀, k) times the right factor at (k, j₁):
    the product into the zero accumulator is that sum, and the contraction's one axis is indexed by `Fin 128`. -/
theorem pay_apply (x0 : Vec Ideal S5000x128 .f32) (x1 : Vec Ideal S128x64 .f32) (j : S5000x64.Idx) :
    k2_pay1 (F := Ideal) x0 x1 j = ∑ k : Fin 128, x0 (lb j k) * x1 (rb j k) := by
  unfold k2_pay1
  simp only [shapeCast_self, matmul]
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lb j k := funext fun a => Fin.ext (by
    match a with
    | ⟨0, _⟩ => exact lhs0 _ _
    | ⟨1, _⟩ => exact (lhs1 _ _).trans hk)
  have er : dot_S5000x128_S128x64_S5000x64_1_0_0_1_n_n.rhsIdx j ((ValueIdx.contrEquiv1 dot_S5000x128_S128x64_S5000x64_1_0_0_1_n_n 128 rfl rfl).symm k) = rb j k := funext fun a => Fin.ext (by
    match a with
    | ⟨0, _⟩ => exact (rhs0 _ _).trans hk
    | ⟨1, _⟩ => exact rhs1 _ _)
  show x0 (dot_S5000x128_S128x64_S5000x64_1_0_0_1_n_n.lhsIdx j ((ValueIdx.contrEquiv1 dot_S5000x128_S128x64_S5000x64_1_0_0_1_n_n 128 rfl rfl).symm k)) * x1 (dot_S5000x128_S128x64_S5000x64_1_0_0_1_n_n.rhsIdx j ((ValueIdx.contrEquiv1 dot_S5000x128_S128x64_S5000x64_1_0_0_1_n_n 128 rfl rfl).symm k)) = _
  rw [el, er]

/-! ## From tiles to the array -/

theorem hz : (![0, 0] : Fin 2 → Nat) = fun _ => 0 := funext fun a => by fin_cases a <;> rfl

/-- The three index maps over the grid: the left factor and the result move down one tile per point and have one
    tile across; the right factor stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is tile `t` of the product of the two operand arrays as the region finds them. -/
theorem flushed_eq (c : Dev nD) (t : Fin cfg2.N) :
    (dat2 V c).flushed 2 t = ((cfg2.win 2).blk t).view.read (Elt Ideal) (prod (V c main_v48) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  refine (pay_apply _ _ j).trans ?_
  show ∑ k : Fin 128, (show (⟨S100000x128, .f32⟩ : BufTy).Contents (Elt Ideal) from V c main_v48) (((cfg2.win 0).blk t).view.emb (lb j k)) * (show (⟨S128x64, .f32⟩ : BufTy).Contents (Elt Ideal) from V c main_arg4) (((cfg2.win 1).blk t).view.emb (rb j k))
    = ∑ k : Fin 128, (show (⟨S100000x128, .f32⟩ : BufTy).Contents (Elt Ideal) from V c main_v48) (lix (((cfg2.win 2).blk t).view.emb j) k) * (show (⟨S128x64, .f32⟩ : BufTy).Contents (Elt Ideal) from V c main_arg4) (rix (((cfg2.win 2).blk t).view.emb j) k)
  refine Finset.sum_congr rfl fun k _ => ?_
  have h0 : ((cfg2.win 0).blk t).view.emb (lb j k) = lix (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (rb j k) = rix (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [h0, h1]

/-- An entry of the result array is in point `t`'s tile iff each coordinate is in the tile's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v49).slice (win2_2.rect t)).set ↔ _
  rw [View.set_slice_whole, Rect.mem_set_unit]
  exact Iff.rfl

/-- Every entry is in some written tile: row `i 0` is in tile `i 0 / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  have hlt : (i 0).val / 5000 < grid2.N := by omega
  obtain ⟨e0, e1, e2, e3, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    have e4' : win2_2.index ⟨(i 0).val / 5000, hlt⟩ (0 : Fin 2) = (i 0).val / 5000 := e4
    omega
  | ⟨1, _⟩ =>
    show win2_2.index ⟨(i 0).val / 5000, hlt⟩ (1 : Fin 2) * 64 ≤ (i 1).val ∧ (i 1).val < win2_2.index ⟨(i 0).val / 5000, hlt⟩ (1 : Fin 2) * 64 + 64
    omega

/-- After the region the result array is the product of the operand arrays as the region found them. -/
theorem final (c : Dev nD) : (dat2 V c).arrAt 2 cfg2.N = prod (V c main_v48) (V c main_arg4) :=
  (dat2 V c).arrAt_eq_of_cover 2 (prod (V c main_v48) (V c main_arg4)) (fun t _ => flushed_eq V c t) cover

end Cert.KernelIdeal.Mat2

end
-- ==== Proof.Mat4.lean ====
/-
  Region 4 of the kernel program: a [100000, 192] array times a [192, 64] array, twenty row tiles of 5000 rows.

  At a grid point the body loads its 5000 × 192 tile of the left factor and the whole right factor, forms their
  product into a zero accumulator and stores the 5000 × 64 result tile (the roundings to a narrower format on the way
  in are the identity on the extended reals).  Entry (r, q) of that tile is the sum over k of left(r, k) · right(k, q).
  Tile t of the left factor and of the result are rows 5000·t … 5000·t + 4999, the right factor's one tile is all of
  it, so what point t writes back is tile t of ONE array: `prod x w`, whose entry (i₀, i₁) is the sum over k of
  x(i₀, k) · w(k, i₁).  The twenty tiles cover all 100000 rows (row i₀ lies in tile i₀ / 5000), hence after the
  region the result array is `prod` of the two operand arrays as the region found them.
-/
import proofs.«117244_j88579405512834_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mat4

open Cert.KernelIdeal Cert.KernelIdeal.Gen Idealize.ShloMosaic Idealize.ShloMosaic.TcCoe Idealize.SL.Sem

/-- Row `i 0`, column `k`: the left factor's entry that output entry `i` meets at `k`. -/
abbrev lix (i : S100000x64.Idx) (k : Fin 192) : S100000x192.Idx := fun a => match a with
  | ⟨0, _⟩ => ⟨(i 0).val, (i 0).isLt⟩
  | ⟨1, _⟩ => ⟨k.val, k.isLt⟩
/-- Row `k`, column `i 1`: the right factor's entry that output entry `i` meets at `k`. -/
abbrev rix (i : S100000x64.Idx) (k : Fin 192) : S192x64.Idx := fun a => match a with
  | ⟨0, _⟩ => ⟨k.val, k.isLt⟩
  | ⟨1, _⟩ => ⟨(i 1).val, (i 1).isLt⟩
/-- The same two inside one 5000-row tile. -/
abbrev lb (j : S5000x64.Idx) (k : Fin 192) : S5000x192.Idx := fun a => match a with
  | ⟨0, _⟩ => ⟨(j 0).val, (j 0).isLt⟩
  | ⟨1, _⟩ => ⟨k.val, k.isLt⟩
abbrev rb (j : S5000x64.Idx) (k : Fin 192) : S192x64.Idx := fun a => match a with
  | ⟨0, _⟩ => ⟨k.val, k.isLt⟩
  | ⟨1, _⟩ => ⟨(j 1).val, (j 1).isLt⟩

/-- The product of a [100000, 192] array and a [192, 64] array on the extended reals, entry by entry. -/
def prod (x : (⟨S100000x192, .f32⟩ : BufTy).Contents (Elt Ideal)) (w : (⟨S192x64, .f32⟩ : BufTy).Contents (Elt Ideal)) :
    (⟨S100000x64, .f32⟩ : BufTy).Contents (Elt Ideal) :=
  fun i => ∑ k : Fin 192, x (lix i k) * w (rix i k)

/-! ## One tile: the body's stored value at an entry -/

theorem lhs0 (j : S5000x64.Idx) (q : dot_S5000x192_S192x64_S5000x64_1_0_0_1_n_n.contr.Idx) : (dot_S5000x192_S192x64_S5000x64_1_0_0_1_n_n.lhsIdx j q 0).val = (j 0).val := by
  unfold DotDims.lhsIdx
  rw [dif_neg (show ¬(0 : Fin S5000x192.rank) ∈ dot_S5000x192_S192x64_S5000x64_1_0_0_1_n_n.lhsBatch by decide), dif_pos (show (0 : Fin S5000x192.rank) ∈ dot_S5000x192_S192x64_S5000x64_1_0_0_1_n_n.lhsNonContracting by decide)]
  rfl
theorem lhs1 (j : S5000x64.Idx) (q : dot_S5000x192_S192x64_S5000x64_1_0_0_1_n_n.contr.Idx) : (dot_S5000x192_S192x64_S5000x64_1_0_0_1_n_n.lhsIdx j q 1).val = (q ⟨0, by decide⟩).val :=
  dot_S5000x192_S192x64_S5000x64_1_0_0_1_n_n.lhsIdx_val_of_single rfl j q
theorem rhs0 (j : S5000x64.Idx) (q : dot_S5000x192_S192x64_S5000x64_1_0_0_1_n_n.contr.Idx) : (dot_S5000x192_S192x64_S5000x64_1_0_0_1_n_n.rhsIdx j q 0).val = (q ⟨0, by decide⟩).val :=
  dot_S5000x192_S192x64_S5000x64_1_0_0_1_n_n.rhsIdx_val_of_single rfl j q
theorem rhs1 (j : S5000x64.Idx) (q : dot_S5000x192_S192x64_S5000x64_1_0_0_1_n_n.contr.Idx) : (dot_S5000x192_S192x64_S5000x64_1_0_0_1_n_n.rhsIdx j q 1).val = (j 1).val := by
  unfold DotDims.rhsIdx
  rw [dif_neg (show ¬(1 : Fin S192x64.rank) ∈ dot_S5000x192_S192x64_S5000x64_1_0_0_1_n_n.rhsBatch by decide), dif_pos (show (1 : Fin S192x64.rank) ∈ dot_S5000x192_S192x64_S5000x64_1_0_0_1_n_n.rhsNonContracting by decide)]
  rfl

/-- Entry `j` of the stored tile is the sum over `k` of the loaded left tile at (j₀, k) times the right factor at (k, j₁):
    the product into the zero accumulator is that sum, and the contraction's one axis is indexed by `Fin 192`. -/
theorem pay_apply (x0 : Vec Ideal S5000x192 .f32) (x1 : Vec Ideal S192x64 .f32) (j : S5000x64.Idx) :
    k4_pay1 (F := Ideal) x0 x1 j = ∑ k : Fin 192, x0 (lb j k) * x1 (rb j k) := by
  unfold k4_pay1
  simp only [shapeCast_self, matmul]
  refine (Ideal.matmul_constant_zero_apply dot_S5000x192_S192x64_S5000x64_1_0_0_1_n_n none _ _ j).trans ?_
  rw [← Equiv.sum_comp (ValueIdx.contrEquiv1 dot_S5000x192_S192x64_S5000x64_1_0_0_1_n_n 192 rfl rfl).symm]
  refine Finset.sum_congr rfl fun k _ => ?_
  have hk := ValueIdx.contrEquiv1_symm_val dot_S5000x192_S192x64_S5000x64_1_0_0_1_n_n 192 rfl rfl k
  have el : dot_S5000x192_S192x64_S5000x64_1_0_0_1_n_n.lhsIdx j ((ValueIdx.contrEquiv1 dot_S5000x192_S192x64_S5000x64_1_0_0_1_n_n 192 rfl rfl).symm k) = lb j k := funext fun a => Fin.ext (by
    match a with
    | ⟨0, _⟩ => exact lhs0 _ _
    | ⟨1, _⟩ => exact (lhs1 _ _).trans hk)
  have er : dot_S5000x192_S192x64_S5000x64_1_0_0_1_n_n.rhsIdx j ((ValueIdx.contrEquiv1 dot_S5000x192_S192x64_S5000x64_1_0_0_1_n_n 192 rfl rfl).symm k) = rb j k := funext fun a => Fin.ext (by
    match a with
    | ⟨0, _⟩ => exact (rhs0 _ _).trans hk
    | ⟨1, _⟩ => exact rhs1 _ _)
  show x0 (dot_S5000x192_S192x64_S5000x64_1_0_0_1_n_n.lhsIdx j ((ValueIdx.contrEquiv1 dot_S5000x192_S192x64_S5000x64_1_0_0_1_n_n 192 rfl rfl).symm k)) * x1 (dot_S5000x192_S192x64_S5000x64_1_0_0_1_n_n.rhsIdx j ((ValueIdx.contrEquiv1 dot_S5000x192_S192x64_S5000x64_1_0_0_1_n_n 192 rfl rfl).symm k)) = _
  rw [el, er]

/-! ## From tiles to the array -/

theorem hz : (![0, 0] : Fin 2 → Nat) = fun _ => 0 := funext fun a => by fin_cases a <;> rfl

/-- The three index maps over the grid: the left factor and the result move down one tile per point and have one
    tile across; the right factor stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point `t` writes back is tile `t` of the product of the two operand arrays as the region finds them. -/
theorem flushed_eq (c : Dev nD) (t : Fin cfg4.N) :
    (dat4 V c).flushed 2 t = ((cfg4.win 2).blk t).view.read (Elt Ideal) (prod (V c main_v64) (V c main_arg6)) := by
  show (cfg4.win 2).cut (grid4.coords t) ((dat4 V c).after 2 t) = _
  rw [after4_2]
  unfold out4_2
  rw [View.canon_unit_zero hz]
  simp only [View.ld_unit_zero (S := S5000x192) hz, View.ld_unit_zero (S := S192x64) hz]
  obtain ⟨e0, e1, e2, e3, e4, e5⟩ := idx_facts t
  funext j
  refine (pay_apply _ _ j).trans ?_
  show ∑ k : Fin 192, (show (⟨S100000x192, .f32⟩ : BufTy).Contents (Elt Ideal) from V c main_v64) (((cfg4.win 0).blk t).view.emb (lb j k)) * (show (⟨S192x64, .f32⟩ : BufTy).Contents (Elt Ideal) from V c main_arg6) (((cfg4.win 1).blk t).view.emb (rb j k))
    = ∑ k : Fin 192, (show (⟨S100000x192, .f32⟩ : BufTy).Contents (Elt Ideal) from V c main_v64) (lix (((cfg4.win 2).blk t).view.emb j) k) * (show (⟨S192x64, .f32⟩ : BufTy).Contents (Elt Ideal) from V c main_arg6) (rix (((cfg4.win 2).blk t).view.emb j) k)
  refine Finset.sum_congr rfl fun k _ => ?_
  have h0 : ((cfg4.win 0).blk t).view.emb (lb j k) = lix (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 192 + 1 * k.val = k.val; omega
  have h1 : ((cfg4.win 1).blk t).view.emb (rb j k) = rix (((cfg4.win 2).blk t).view.emb j) k := by
    funext a; apply Fin.ext
    match a with
    | ⟨0, _⟩ => show win4_1.index t (0 : Fin 2) * 192 + 1 * k.val = k.val; omega
    | ⟨1, _⟩ => show win4_1.index t (1 : Fin 2) * 64 + 1 * (j 1).val = win4_2.index t (1 : Fin 2) * 64 + 1 * (j 1).val; omega
  rw [h0, h1]

/-- An entry of the result array is in point `t`'s tile iff each coordinate is in the tile's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v65).slice (win4_2.rect t)).set ↔ _
  rw [View.set_slice_whole, Rect.mem_set_unit]
  exact Iff.rfl

/-- Every entry is in some written tile: row `i 0` is in tile `i 0 / 5000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 20 := N_4
  have hlt : (i 0).val / 5000 < grid4.N := by omega
  obtain ⟨e0, e1, e2, e3, e4, e5⟩ := idx_facts ⟨(i 0).val / 5000, hlt⟩
  refine ⟨⟨(i 0).val / 5000, hlt⟩, flush4_2 _, ?_⟩
  rw [mem_blk]
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    have e4' : win4_2.index ⟨(i 0).val / 5000, hlt⟩ (0 : Fin 2) = (i 0).val / 5000 := e4
    omega
  | ⟨1, _⟩ =>
    show win4_2.index ⟨(i 0).val / 5000, hlt⟩ (1 : Fin 2) * 64 ≤ (i 1).val ∧ (i 1).val < win4_2.index ⟨(i 0).val / 5000, hlt⟩ (1 : Fin 2) * 64 + 64
    omega

/-- After the region the result array is the product of the operand arrays as the region found them. -/
theorem final (c : Dev nD) : (dat4 V c).arrAt 2 cfg4.N = prod (V c main_v64) (V c main_arg6) :=
  (dat4 V c).arrAt_eq_of_cover 2 (prod (V c main_v64) (V c main_arg6)) (fun t _ => flushed_eq V c t) cover

end Cert.KernelIdeal.Mat4

end
-- ==== Proof.Mat6.lean ====
/-
  Region 6 of the kernel program: a [100000, 256] array times a [256, 64] array, twenty row tiles of 5000 rows.

  At a grid point the body loads its 5000 × 256 tile of the left factor and the whole right factor, forms their
  product into a zero accumulator and stores the 5000 × 64 result tile (the roundings to a narrower format on the way
  in are the identity on the extended reals).  Entry (r, q) of that tile is the sum over k of left(r, k) · right(k, q).
  Tile t of the left factor and of the result are rows 5000·t … 5000·t + 4999, the right factor's one tile is all of
  it, so what point t writes back is tile t of ONE array: `prod x w`, whose entry (i₀, i₁) is the sum over k of
  x(i₀, k) · w(k, i₁).  The twenty tiles cover all 100000 rows (row i₀ lies in tile i₀ / 5000), hence after the
  region the result array is `prod` of the two operand arrays as the region found them.
-/
import proofs.«117244_j88579405512834_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mat6

open Cert.KernelIdeal Cert.KernelIdeal.Gen Idealize.ShloMosaic Idealize.ShloMosaic.TcCoe Idealize.SL.Sem

/-- Row `i 0`, column `k`: the left factor's entry that output entry `i` meets at `k`. -/
abbrev lix (i : S100000x64.Idx) (k : Fin 256) : S100000x256.Idx := fun a => match a with
  | ⟨0, _⟩ => ⟨(i 0).val, (i 0).isLt⟩
  | ⟨1, _⟩ => ⟨k.val, k.isLt⟩
/-- Row `k`, column `i 1`: the right factor's entry that output entry `i` meets at `k`. -/
abbrev rix (i : S100000x64.Idx) (k : Fin 256) : S256x64.Idx := fun a => match a with
  | ⟨0, _⟩ => ⟨k.val, k.isLt⟩
  | ⟨1, _⟩ => ⟨(i 1).val, (i 1).isLt⟩
/-- The same two inside one 5000-row tile. -/
abbrev lb (j : S5000x64.Idx) (k : Fin 256) : S5000x256.Idx := fun a => match a with
  | ⟨0, _⟩ => ⟨(j 0).val, (j 0).isLt⟩
  | ⟨1, _⟩ => ⟨k.val, k.isLt⟩
abbrev rb (j : S5000x64.Idx) (k : Fin 256) : S256x64.Idx := fun a => match a with
  | ⟨0, _⟩ => ⟨k.val, k.isLt⟩
  | ⟨1, _⟩ => ⟨(j 1).val, (j 1).isLt⟩

/-- The product of a [100000, 256] array and a [256, 64] array on the extended reals, entry by entry. -/
def prod (x : (⟨S100000x256, .f32⟩ : BufTy).Contents (Elt Ideal)) (w : (⟨S256x64, .f32⟩ : BufTy).Contents (Elt Ideal)) :
    (⟨S100000x64, .f32⟩ : BufTy).Contents (Elt Ideal) :=
  fun i => ∑ k : Fin 256, x (lix i k) * w (rix i k)

/-! ## One tile: the body's stored value at an entry -/

theorem lhs0 (j : S5000x64.Idx) (q : dot_S5000x256_S256x64_S5000x64_1_0_0_1_n_n.contr.Idx) : (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs1 (j : S5000x64.Idx) (q : dot_S5000x256_S256x64_S5000x64_1_0_0_1_n_n.contr.Idx) : (dot_S5000x256_S256x64_S5000x64_1_0_0_1_n_n.lhsIdx j q 1).val = (q ⟨0, by decide⟩).val :=
  dot_S5000x256_S256x64_S5000x64_1_0_0_1_n_n.lhsIdx_val_of_single rfl j q
theorem rhs0 (j : S5000x64.Idx) (q : dot_S5000x256_S256x64_S5000x64_1_0_0_1_n_n.contr.Idx) : (dot_S5000x256_S256x64_S5000x64_1_0_0_1_n_n.rhsIdx j q 0).val = (q ⟨0, by decide⟩).val :=
  dot_S5000x256_S256x64_S5000x64_1_0_0_1_n_n.rhsIdx_val_of_single rfl j q
theorem rhs1 (j : S5000x64.Idx) (q : dot_S5000x256_S256x64_S5000x64_1_0_0_1_n_n.contr.Idx) : (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry `j` of the stored tile is the sum over `k` of the loaded left tile at (j₀, k) times the right factor at (k, j₁):
    the product into the zero accumulator is that sum, and the contraction's one axis is indexed by `Fin 256`. -/
theorem pay_apply (x0 : Vec Ideal S5000x256 .f32) (x1 : Vec Ideal S256x64 .f32) (j : S5000x64.Idx) :
    k6_pay1 (F := Ideal) x0 x1 j = ∑ k : Fin 256, x0 (lb j k) * x1 (rb j k) := by
  unfold k6_pay1
  simp only [shapeCast_self, matmul]
  refine (Ideal.matmul_constant_zero_apply dot_S5000x256_S256x64_S5000x64_1_0_0_1_n_n none _ _ j).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = lb j k := funext fun a => Fin.ext (by
    match a with
    | ⟨0, _⟩ => exact lhs0 _ _
    | ⟨1, _⟩ => exact (lhs1 _ _).trans hk)
  have er : dot_S5000x256_S256x64_S5000x64_1_0_0_1_n_n.rhsIdx j ((ValueIdx.contrEquiv1 dot_S5000x256_S256x64_S5000x64_1_0_0_1_n_n 256 rfl rfl).symm k) = rb j k := funext fun a => Fin.ext (by
    match a with
    | ⟨0, _⟩ => exact (rhs0 _ _).trans hk
    | ⟨1, _⟩ => exact rhs1 _ _)
  show x0 (dot_S5000x256_S256x64_S5000x64_1_0_0_1_n_n.lhsIdx j ((ValueIdx.contrEquiv1 dot_S5000x256_S256x64_S5000x64_1_0_0_1_n_n 256 rfl rfl).symm k)) * x1 (dot_S5000x256_S256x64_S5000x64_1_0_0_1_n_n.rhsIdx j ((ValueIdx.contrEquiv1 dot_S5000x256_S256x64_S5000x64_1_0_0_1_n_n 256 rfl rfl).symm k)) = _
  rw [el, er]

/-! ## From tiles to the array -/

theorem hz : (![0, 0] : Fin 2 → Nat) = fun _ => 0 := funext fun a => by fin_cases a <;> rfl

/-- The three index maps over the grid: the left factor and the result move down one tile per point and have one
    tile across; the right factor stays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- What point `t` writes back is tile `t` of the product of the two operand arrays as the region finds them. -/
theorem flushed_eq (c : Dev nD) (t : Fin cfg6.N) :
    (dat6 V c).flushed 2 t = ((cfg6.win 2).blk t).view.read (Elt Ideal) (prod (V c main_v80) (V c main_arg8)) := by
  show (cfg6.win 2).cut (grid6.coords t) ((dat6 V c).after 2 t) = _
  rw [after6_2]
  unfold out6_2
  rw [View.canon_unit_zero hz]
  simp only [View.ld_unit_zero (S := S5000x256) hz, View.ld_unit_zero (S := S256x64) hz]
  obtain ⟨e0, e1, e2, e3, e4, e5⟩ := idx_facts t
  funext j
  refine (pay_apply _ _ j).trans ?_
  show ∑ k : Fin 256, (show (⟨S100000x256, .f32⟩ : BufTy).Contents (Elt Ideal) from V c main_v80) (((cfg6.win 0).blk t).view.emb (lb j k)) * (show (⟨S256x64, .f32⟩ : BufTy).Contents (Elt Ideal) from V c main_arg8) (((cfg6.win 1).blk t).view.emb (rb j k))
    = ∑ k : Fin 256, (show (⟨S100000x256, .f32⟩ : BufTy).Contents (Elt Ideal) from V c main_v80) (lix (((cfg6.win 2).blk t).view.emb j) k) * (show (⟨S256x64, .f32⟩ : BufTy).Contents (Elt Ideal) from V c main_arg8) (rix (((cfg6.win 2).blk t).view.emb j) k)
  refine Finset.sum_congr rfl fun k _ => ?_
  have h0 : ((cfg6.win 0).blk t).view.emb (lb j k) = lix (((cfg6.win 2).blk t).view.emb j) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 256 + 1 * k.val = k.val; omega
  have h1 : ((cfg6.win 1).blk t).view.emb (rb j k) = rix (((cfg6.win 2).blk t).view.emb j) k := by
    funext a; apply Fin.ext
    match a with
    | ⟨0, _⟩ => show win6_1.index t (0 : Fin 2) * 256 + 1 * k.val = k.val; omega
    | ⟨1, _⟩ => show win6_1.index t (1 : Fin 2) * 64 + 1 * (j 1).val = win6_2.index t (1 : Fin 2) * 64 + 1 * (j 1).val; omega
  rw [h0, h1]

/-- An entry of the result array is in point `t`'s tile iff each coordinate is in the tile's range on its axis. -/
theorem mem_blk (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v81).slice (win6_2.rect t)).set ↔ _
  rw [View.set_slice_whole, Rect.mem_set_unit]
  exact Iff.rfl

/-- Every entry is in some written tile: row `i 0` is in tile `i 0 / 5000`. -/
theorem cover (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : grid6.N = 20 := N_6
  have hlt : (i 0).val / 5000 < grid6.N := by omega
  obtain ⟨e0, e1, e2, e3, e4, e5⟩ := idx_facts ⟨(i 0).val / 5000, hlt⟩
  refine ⟨⟨(i 0).val / 5000, hlt⟩, flush6_2 _, ?_⟩
  rw [mem_blk]
  intro a
  match a with
  | ⟨0, _⟩ =>
    show win6_2.index ⟨(i 0).val / 5000, hlt⟩ (0 : Fin 2) * 5000 ≤ (i 0).val ∧ (i 0).val < win6_2.index ⟨(i 0).val / 5000, hlt⟩ (0 : Fin 2) * 5000 + 5000
    have e4' : win6_2.index ⟨(i 0).val / 5000, hlt⟩ (0 : Fin 2) = (i 0).val / 5000 := e4
    omega
  | ⟨1, _⟩ =>
    show win6_2.index ⟨(i 0).val / 5000, hlt⟩ (1 : Fin 2) * 64 ≤ (i 1).val ∧ (i 1).val < win6_2.index ⟨(i 0).val / 5000, hlt⟩ (1 : Fin 2) * 64 + 64
    omega

/-- After the region the result array is the product of the operand arrays as the region found them. -/
theorem final (c : Dev nD) : (dat6 V c).arrAt 2 cfg6.N = prod (V c main_v80) (V c main_arg8) :=
  (dat6 V c).arrAt_eq_of_cover 2 (prod (V c main_v80) (V c main_arg8)) (fun t _ => flushed_eq V c t) cover

end Cert.KernelIdeal.Mat6

end
-- ==== Proof.Mat8.lean ====
/-
  Region 8 of the kernel program: a [100000, 320] array times a [320, 64] array, twenty row tiles of 5000 rows.

  At a grid point the body loads its 5000 × 320 tile of the left factor and the whole right factor, forms their
  product into a zero accumulator and stores the 5000 × 64 result tile (the roundings to a narrower format on the way
  in are the identity on the extended reals).  Entry (r, q) of that tile is the sum over k of left(r, k) · right(k, q).
  Tile t of the left factor and of the result are rows 5000·t … 5000·t + 4999, the right factor's one tile is all of
  it, so what point t writes back is tile t of ONE array: `prod x w`, whose entry (i₀, i₁) is the sum over k of
  x(i₀, k) · w(k, i₁).  The twenty tiles cover all 100000 rows (row i₀ lies in tile i₀ / 5000), hence after the
  region the result array is `prod` of the two operand arrays as the region found them.
-/
import proofs.«117244_j88579405512834_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mat8

open Cert.KernelIdeal Cert.KernelIdeal.Gen Idealize.ShloMosaic Idealize.ShloMosaic.TcCoe Idealize.SL.Sem

/-- Row `i 0`, column `k`: the left factor's entry that output entry `i` meets at `k`. -/
abbrev lix (i : S100000x64.Idx) (k : Fin 320) : S100000x320.Idx := fun a => match a with
  | ⟨0, _⟩ => ⟨(i 0).val, (i 0).isLt⟩
  | ⟨1, _⟩ => ⟨k.val, k.isLt⟩
/-- Row `k`, column `i 1`: the right factor's entry that output entry `i` meets at `k`. -/
abbrev rix (i : S100000x64.Idx) (k : Fin 320) : S320x64.Idx := fun a => match a with
  | ⟨0, _⟩ => ⟨k.val, k.isLt⟩
  | ⟨1, _⟩ => ⟨(i 1).val, (i 1).isLt⟩
/-- The same two inside one 5000-row tile. -/
abbrev lb (j : S5000x64.Idx) (k : Fin 320) : S5000x320.Idx := fun a => match a with
  | ⟨0, _⟩ => ⟨(j 0).val, (j 0).isLt⟩
  | ⟨1, _⟩ => ⟨k.val, k.isLt⟩
abbrev rb (j : S5000x64.Idx) (k : Fin 320) : S320x64.Idx := fun a => match a with
  | ⟨0, _⟩ => ⟨k.val, k.isLt⟩
  | ⟨1, _⟩ => ⟨(j 1).val, (j 1).isLt⟩

/-- The product of a [100000, 320] array and a [320, 64] array on the extended reals, entry by entry. -/
def prod (x : (⟨S100000x320, .f32⟩ : BufTy).Contents (Elt Ideal)) (w : (⟨S320x64, .f32⟩ : BufTy).Contents (Elt Ideal)) :
    (⟨S100000x64, .f32⟩ : BufTy).Contents (Elt Ideal) :=
  fun i => ∑ k : Fin 320, x (lix i k) * w (rix i k)

/-! ## One tile: the body's stored value at an entry -/

theorem lhs0 (j : S5000x64.Idx) (q : dot_S5000x320_S320x64_S5000x64_1_0_0_1_n_n.contr.Idx) : (dot_S5000x320_S320x64_S5000x64_1_0_0_1_n_n.lhsIdx j q 0).val = (j 0).val := by
  unfold DotDims.lhsIdx
  rw [dif_neg (show ¬(0 : Fin S5000x320.rank) ∈ dot_S5000x320_S320x64_S5000x64_1_0_0_1_n_n.lhsBatch by decide), dif_pos (show (0 : Fin S5000x320.rank) ∈ dot_S5000x320_S320x64_S5000x64_1_0_0_1_n_n.lhsNonContracting by decide)]
  rfl
theorem lhs1 (j : S5000x64.Idx) (q : dot_S5000x320_S320x64_S5000x64_1_0_0_1_n_n.contr.Idx) : (dot_S5000x320_S320x64_S5000x64_1_0_0_1_n_n.lhsIdx j q 1).val = (q ⟨0, by decide⟩).val :=
  dot_S5000x320_S320x64_S5000x64_1_0_0_1_n_n.lhsIdx_val_of_single rfl j q
theorem rhs0 (j : S5000x64.Idx) (q : dot_S5000x320_S320x64_S5000x64_1_0_0_1_n_n.contr.Idx) : (dot_S5000x320_S320x64_S5000x64_1_0_0_1_n_n.rhsIdx j q 0).val = (q ⟨0, by decide⟩).val :=
  dot_S5000x320_S320x64_S5000x64_1_0_0_1_n_n.rhsIdx_val_of_single rfl j q
theorem rhs1 (j : S5000x64.Idx) (q : dot_S5000x320_S320x64_S5000x64_1_0_0_1_n_n.contr.Idx) : (dot_S5000x320_S320x64_S5000x64_1_0_0_1_n_n.rhsIdx j q 1).val = (j 1).val := by
  unfold DotDims.rhsIdx
  rw [dif_neg (show ¬(1 : Fin S320x64.rank) ∈ dot_S5000x320_S320x64_S5000x64_1_0_0_1_n_n.rhsBatch by decide), dif_pos (show (1 : Fin S320x64.rank) ∈ dot_S5000x320_S320x64_S5000x64_1_0_0_1_n_n.rhsNonContracting by decide)]
  rfl

/-- Entry `j` of the stored tile is the sum over `k` of the loaded left tile at (j₀, k) times the right factor at (k, j₁):
    the product into the zero accumulator is that sum, and the contraction's one axis is indexed by `Fin 320`. -/
theorem pay_apply (x0 : Vec Ideal S5000x320 .f32) (x1 : Vec Ideal S320x64 .f32) (j : S5000x64.Idx) :
    k8_pay1 (F := Ideal) x0 x1 j = ∑ k : Fin 320, x0 (lb j k) * x1 (rb j k) := by
  unfold k8_pay1
  simp only [shapeCast_self, matmul]
  refine (Ideal.matmul_constant_zero_apply dot_S5000x320_S320x64_S5000x64_1_0_0_1_n_n none _ _ j).trans ?_
  rw [← Equiv.sum_comp (ValueIdx.contrEquiv1 dot_S5000x320_S320x64_S5000x64_1_0_0_1_n_n 320 rfl rfl).symm]
  refine Finset.sum_congr rfl fun k _ => ?_
  have hk := ValueIdx.contrEquiv1_symm_val dot_S5000x320_S320x64_S5000x64_1_0_0_1_n_n 320 rfl rfl k
  have el : dot_S5000x320_S320x64_S5000x64_1_0_0_1_n_n.lhsIdx j ((ValueIdx.contrEquiv1 dot_S5000x320_S320x64_S5000x64_1_0_0_1_n_n 320 rfl rfl).symm k) = lb j k := funext fun a => Fin.ext (by
    match a with
    | ⟨0, _⟩ => exact lhs0 _ _
    | ⟨1, _⟩ => exact (lhs1 _ _).trans hk)
  have er : dot_S5000x320_S320x64_S5000x64_1_0_0_1_n_n.rhsIdx j ((ValueIdx.contrEquiv1 dot_S5000x320_S320x64_S5000x64_1_0_0_1_n_n 320 rfl rfl).symm k) = rb j k := funext fun a => Fin.ext (by
    match a with
    | ⟨0, _⟩ => exact (rhs0 _ _).trans hk
    | ⟨1, _⟩ => exact rhs1 _ _)
  show x0 (dot_S5000x320_S320x64_S5000x64_1_0_0_1_n_n.lhsIdx j ((ValueIdx.contrEquiv1 dot_S5000x320_S320x64_S5000x64_1_0_0_1_n_n 320 rfl rfl).symm k)) * x1 (dot_S5000x320_S320x64_S5000x64_1_0_0_1_n_n.rhsIdx j ((ValueIdx.contrEquiv1 dot_S5000x320_S320x64_S5000x64_1_0_0_1_n_n 320 rfl rfl).symm k)) = _
  rw [el, er]

/-! ## From tiles to the array -/

theorem hz : (![0, 0] : Fin 2 → Nat) = fun _ => 0 := funext fun a => by fin_cases a <;> rfl

/-- The three index maps over the grid: the left factor and the result move down one tile per point and have one
    tile across; the right factor stays. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

variable (V : (c : Dev nD) → (b : Ref sig .tc) → Buf (Elt Ideal) ((c : Thread nD τ).loc b))

/-- What point `t` writes back is tile `t` of the product of the two operand arrays as the region finds them. -/
theorem flushed_eq (c : Dev nD) (t : Fin cfg8.N) :
    (dat8 V c).flushed 2 t = ((cfg8.win 2).blk t).view.read (Elt Ideal) (prod (V c main_v96) (V c main_arg10)) := by
  show (cfg8.win 2).cut (grid8.coords t) ((dat8 V c).after 2 t) = _
  rw [after8_2]
  unfold out8_2
  rw [View.canon_unit_zero hz]
  simp only [View.ld_unit_zero (S := S5000x320) hz, View.ld_unit_zero (S := S320x64) hz]
  obtain ⟨e0, e1, e2, e3, e4, e5⟩ := idx_facts t
  funext j
  refine (pay_apply _ _ j).trans ?_
  show ∑ k : Fin 320, (show (⟨S100000x320, .f32⟩ : BufTy).Contents (Elt Ideal) from V c main_v96) (((cfg8.win 0).blk t).view.emb (lb j k)) * (show (⟨S320x64, .f32⟩ : BufTy).Contents (Elt Ideal) from V c main_arg10) (((cfg8.win 1).blk t).view.emb (rb j k))
    = ∑ k : Fin 320, (show (⟨S100000x320, .f32⟩ : BufTy).Contents (Elt Ideal) from V c main_v96) (lix (((cfg8.win 2).blk t).view.emb j) k) * (show (⟨S320x64, .f32⟩ : BufTy).Contents (Elt Ideal) from V c main_arg10) (rix (((cfg8.win 2).blk t).view.emb j) k)
  refine Finset.sum_congr rfl fun k _ => ?_
  have h0 : ((cfg8.win 0).blk t).view.emb (lb j k) = lix (((cfg8.win 2).blk t).view.emb j) k := by
    funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 320 + 1 * k.val = k.val; omega
  have h1 : ((cfg8.win 1).blk t).view.emb (rb j k) = rix (((cfg8.win 2).blk t).view.emb j) k := by
    funext a; apply Fin.ext
    match a with
    | ⟨0, _⟩ => show win8_1.index t (0 : Fin 2) * 320 + 1 * k.val = k.val; omega
    | ⟨1, _⟩ => show win8_1.index t (1 : Fin 2) * 64 + 1 * (j 1).val = win8_2.index t (1 : Fin 2) * 64 + 1 * (j 1).val; omega
  rw [h0, h1]

/-- An entry of the result array is in point `t`'s tile iff each coordinate is in the tile's range on its axis. -/
theorem mem_blk (t : Fin cfg8.N) (i : S100000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v97).slice (win8_2.rect t)).set ↔ _
  rw [View.set_slice_whole, Rect.mem_set_unit]
  exact Iff.rfl

/-- Every entry is in some written tile: row `i 0` is in tile `i 0 / 5000`. -/
theorem cover (i : S100000x64.Idx) : ∃ t : Fin cfg8.N, (cfg8.win 2).flush t = true ∧ i ∈ ((cfg8.win 2).blk t).view.set := by
  have hi0 : (i 0).val < 100000 := (i 0).isLt
  have hi1 : (i 1).val < 64 := (i 1).isLt
  have hN : grid8.N = 20 := N_8
  have hlt : (i 0).val / 5000 < grid8.N := by omega
  obtain ⟨e0, e1, e2, e3, e4, e5⟩ := idx_facts ⟨(i 0).val / 5000, hlt⟩
  refine ⟨⟨(i 0).val / 5000, hlt⟩, flush8_2 _, ?_⟩
  rw [mem_blk]
  intro a
  match a with
  | ⟨0, _⟩ =>
    show win8_2.index ⟨(i 0).val / 5000, hlt⟩ (0 : Fin 2) * 5000 ≤ (i 0).val ∧ (i 0).val < win8_2.index ⟨(i 0).val / 5000, hlt⟩ (0 : Fin 2) * 5000 + 5000
    have e4' : win8_2.index ⟨(i 0).val / 5000, hlt⟩ (0 : Fin 2) = (i 0).val / 5000 := e4
    omega
  | ⟨1, _⟩ =>
    show win8_2.index ⟨(i 0).val / 5000, hlt⟩ (1 : Fin 2) * 64 ≤ (i 1).val ∧ (i 1).val < win8_2.index ⟨(i 0).val / 5000, hlt⟩ (1 : Fin 2) * 64 + 64
    omega

/-- After the region the result array is the product of the operand arrays as the region found them. -/
theorem final (c : Dev nD) : (dat8 V c).arrAt 2 cfg8.N = prod (V c main_v96) (V c main_arg10) :=
  (dat8 V c).arrAt_eq_of_cover 2 (prod (V c main_v96) (V c main_arg10)) (fun t _ => flushed_eq V c t) cover

end Cert.KernelIdeal.Mat8

end
-- ==== Proof.CombSpec.lean ====
/-
  The combine step of one layer, as one function of whole arrays: entry (i₀, i₁) of the result is
  max ((x(i₀, i₁) + a(i₀, i₁)) + b(0, i₁), 0) on the extended reals — the running features plus the aggregated
  messages plus the bias row, cut off below at zero.  All five combine regions of the kernel program compute this one
  function (of different arrays).
-/
import proofs.«117244_j88579405512834_1_alg».proof.KernelIdeal
import Idealize.ShloMosaic.PureOps.Ideal

noncomputable section

namespace Cert.KernelIdeal.CombSpec

open Cert.KernelIdeal Idealize.ShloMosaic

/-- Row 0, column `i 1`: where entry `i` reads the one-row bias array. -/
abbrev bix (i : S100000x64.Idx) : S1x64.Idx := fun a => match a with
  | ⟨0, _⟩ => ⟨0, Nat.one_pos⟩
  | ⟨1, _⟩ => ⟨(i 1).val, (i 1).isLt⟩

/-- features + messages + bias row, cut off below at zero. -/
def comb (x a : (⟨S100000x64, .f32⟩ : BufTy).Contents (Elt Ideal)) (b : (⟨S1x64, .f32⟩ : BufTy).Contents (Elt Ideal)) :
    (⟨S100000x64, .f32⟩ : BufTy).Contents (Elt Ideal) :=
  fun i => max ((x i + a i) + b (bix i)) 0

end Cert.KernelIdeal.CombSpec

end
-- ==== Proof.Comb1.lean ====
/-
  Region 1 of the kernel program: the combine step on twenty row tiles of 5000 rows.

  At a grid point the body loads its 5000 × 64 tiles of the running features and of the aggregated messages and the
  one-row bias array, adds the first two, adds the bias row to every row, takes the maximum with zero and stores the
  tile.  Tile t of all three 100000-row arrays is rows 5000·t … 5000·t + 4999 and the bias array's one tile is all of it,
  so what point t writes back is tile t of ONE array, `comb x a b`.  The twenty tiles cover every row, hence after the
  region the result array is `comb` of the three operand arrays as the region found them.
-/
import proofs.«117244_j88579405512834_1_alg».proof.Proof.Gen.KernelIdeal.Frame
import proofs.«117244_j88579405512834_1_alg».proof.Proof.CombSpec
import Idealize.ShloMosaic.Lib.Pipeline.Value
import Idealize.ShloMosaic.Lib.ValueIdx
import Idealize.ShloMosaic.PureOps.Ideal.Laws

set_option maxRecDepth 16384

noncomputable section

namespace Cert.KernelIdeal.Comb1

open Cert.KernelIdeal Cert.KernelIdeal.Gen Cert.KernelIdeal.CombSpec Idealize.ShloMosaic Idealize.ShloMosaic.TcCoe Idealize.SL.Sem

/-- Row 0, column `j 1`: where entry `j` of a tile reads the bias row. -/
abbrev bjx (j : S5000x64.Idx) : S1x64.Idx := fun a => match a with
  | ⟨0, _⟩ => ⟨0, Nat.one_pos⟩
  | ⟨1, _⟩ => ⟨(j 1).val, (j 1).isLt⟩

/-- Entry `j` of the stored tile: the two loaded tiles at `j` added, plus the bias row at column `j 1`, cut off at zero
    (the casts to the same shape are the identity; the row is repeated down the tile). -/
theorem pay_apply (x0 x1 : Vec Ideal S5000x64 .f32) (x2 : Vec Ideal S1x64 .f32) (j : S5000x64.Idx) :
    k1_pay1 (F := Ideal) x0 x1 x2 j = max ((x0 j + x1 j) + x2 (bjx j)) 0 := by
  unfold k1_pay1
  simp only [shapeCast_self]
  show max ((x0 j + x1 j) + broadcastTo S5000x64 x2 broadcasts_S1x64_S5000x64 j) (Ideal.ofBits .f32 0x00000000#32) = _
  rw [Ideal.ofBits_zero_f32, broadcastTo_apply x2 broadcasts_S1x64_S5000x64 j (bjx j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]

/-! ## From tiles to the array -/

theorem hz : (![0, 0] : Fin 2 → Nat) = fun _ => 0 := funext fun a => by fin_cases a <;> rfl

/-- The four index maps over the grid: the three 100000-row arrays move down one tile per point and have one tile
    across; the bias array stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is tile `t` of `comb` of the three operand arrays as the region finds them. -/
theorem flushed_eq (c : Dev nD) (t : Fin cfg1.N) :
    (dat1 V c).flushed 3 t = ((cfg1.win 3).blk t).view.read (Elt Ideal) (comb (V c main_arg0) (V c main_v45) (V c main_v46)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ _ j).trans ?_
  show max (((show (⟨S100000x64, .f32⟩ : BufTy).Contents (Elt Ideal) from V c main_arg0) (((cfg1.win 0).blk t).view.emb j) + (show (⟨S100000x64, .f32⟩ : BufTy).Contents (Elt Ideal) from V c main_v45) (((cfg1.win 1).blk t).view.emb j)) + (show (⟨S1x64, .f32⟩ : BufTy).Contents (Elt Ideal) from V c main_v46) (((cfg1.win 2).blk t).view.emb (bjx j))) 0
    = max (((show (⟨S100000x64, .f32⟩ : BufTy).Contents (Elt Ideal) from V c main_arg0) (((cfg1.win 3).blk t).view.emb j) + (show (⟨S100000x64, .f32⟩ : BufTy).Contents (Elt Ideal) from V c main_v45) (((cfg1.win 3).blk t).view.emb j)) + (show (⟨S1x64, .f32⟩ : BufTy).Contents (Elt Ideal) from V c main_v46) (bix (((cfg1.win 3).blk t).view.emb j))) 0
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  have h2 : ((cfg1.win 2).blk t).view.emb (bjx j) = bix (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  rw [h0, h1, h2]

/-- An entry of the result array is in point `t`'s tile iff each coordinate is in the tile's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- Every entry is in some written tile: row `i 0` is in tile `i 0 / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := N_1
  have hlt : (i 0).val / 5000 < grid1.N := by omega
  obtain ⟨e0, e1, e2, e3, e4, e5, e6, e7⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    have e6' : win1_3.index ⟨(i 0).val / 5000, hlt⟩ (0 : Fin 2) = (i 0).val / 5000 := e6
    omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    omega

/-- After the region the result array is `comb` of the operand arrays as the region found them. -/
theorem final (c : Dev nD) : (dat1 V c).arrAt 3 cfg1.N = comb (V c main_arg0) (V c main_v45) (V c main_v46) :=
  (dat1 V c).arrAt_eq_of_cover 3 (comb (V c main_arg0) (V c main_v45) (V c main_v46)) (fun t _ => flushed_eq V c t) cover

end Cert.KernelIdeal.Comb1

end
-- ==== Proof.Comb3.lean ====
/-
  Region 3 of the kernel program: the combine step on twenty row tiles of 5000 rows.

  At a grid point the body loads its 5000 × 64 tiles of the running features and of the aggregated messages and the
  one-row bias array, adds the first two, adds the bias row to every row, takes the maximum with zero and stores the
  tile.  Tile t of all three 100000-row arrays is rows 5000·t … 5000·t + 4999 and the bias array's one tile is all of it,
  so what point t writes back is tile t of ONE array, `comb x a b`.  The twenty tiles cover every row, hence after the
  region the result array is `comb` of the three operand arrays as the region found them.
-/
import proofs.«117244_j88579405512834_1_alg».proof.Proof.Gen.KernelIdeal.Frame
import proofs.«117244_j88579405512834_1_alg».proof.Proof.CombSpec
import Idealize.ShloMosaic.Lib.Pipeline.Value
import Idealize.ShloMosaic.Lib.ValueIdx
import Idealize.ShloMosaic.PureOps.Ideal.Laws

set_option maxRecDepth 16384

noncomputable section

namespace Cert.KernelIdeal.Comb3

open Cert.KernelIdeal Cert.KernelIdeal.Gen Cert.KernelIdeal.CombSpec Idealize.ShloMosaic Idealize.ShloMosaic.TcCoe Idealize.SL.Sem

/-- Row 0, column `j 1`: where entry `j` of a tile reads the bias row. -/
abbrev bjx (j : S5000x64.Idx) : S1x64.Idx := fun a => match a with
  | ⟨0, _⟩ => ⟨0, Nat.one_pos⟩
  | ⟨1, _⟩ => ⟨(j 1).val, (j 1).isLt⟩

/-- Entry `j` of the stored tile: the two loaded tiles at `j` added, plus the bias row at column `j 1`, cut off at zero
    (the casts to the same shape are the identity; the row is repeated down the tile). -/
theorem pay_apply (x0 x1 : Vec Ideal S5000x64 .f32) (x2 : Vec Ideal S1x64 .f32) (j : S5000x64.Idx) :
    k3_pay1 (F := Ideal) x0 x1 x2 j = max ((x0 j + x1 j) + x2 (bjx j)) 0 := by
  unfold k3_pay1
  simp only [shapeCast_self]
  show max ((x0 j + x1 j) + broadcastTo S5000x64 x2 broadcasts_S1x64_S5000x64 j) (Ideal.ofBits .f32 0x00000000#32) = _
  rw [Ideal.ofBits_zero_f32, broadcastTo_apply x2 broadcasts_S1x64_S5000x64 j (bjx j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]

/-! ## From tiles to the array -/

theorem hz : (![0, 0] : Fin 2 → Nat) = fun _ => 0 := funext fun a => by fin_cases a <;> rfl

/-- The four index maps over the grid: the three 100000-row arrays move down one tile per point and have one tile
    across; the bias array stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point `t` writes back is tile `t` of `comb` of the three operand arrays as the region finds them. -/
theorem flushed_eq (c : Dev nD) (t : Fin cfg3.N) :
    (dat3 V c).flushed 3 t = ((cfg3.win 3).blk t).view.read (Elt Ideal) (comb (V c main_v47) (V c main_v61) (V c main_v62)) := by
  show (cfg3.win 3).cut (grid3.coords t) ((dat3 V c).after 3 t) = _
  rw [after3_3]
  unfold out3_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ _ j).trans ?_
  show max (((show (⟨S100000x64, .f32⟩ : BufTy).Contents (Elt Ideal) from V c main_v47) (((cfg3.win 0).blk t).view.emb j) + (show (⟨S100000x64, .f32⟩ : BufTy).Contents (Elt Ideal) from V c main_v61) (((cfg3.win 1).blk t).view.emb j)) + (show (⟨S1x64, .f32⟩ : BufTy).Contents (Elt Ideal) from V c main_v62) (((cfg3.win 2).blk t).view.emb (bjx j))) 0
    = max (((show (⟨S100000x64, .f32⟩ : BufTy).Contents (Elt Ideal) from V c main_v47) (((cfg3.win 3).blk t).view.emb j) + (show (⟨S100000x64, .f32⟩ : BufTy).Contents (Elt Ideal) from V c main_v61) (((cfg3.win 3).blk t).view.emb j)) + (show (⟨S1x64, .f32⟩ : BufTy).Contents (Elt Ideal) from V c main_v62) (bix (((cfg3.win 3).blk t).view.emb j))) 0
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 64 + 1 * (j 1).val = win3_3.index t (1 : Fin 2) * 64 + 1 * (j 1).val; omega
  have h2 : ((cfg3.win 2).blk t).view.emb (bjx j) = bix (((cfg3.win 3).blk t).view.emb j) := by
    funext a; apply Fin.ext
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega
  rw [h0, h1, h2]

/-- An entry of the result array is in point `t`'s tile iff each coordinate is in the tile's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v63).slice (win3_3.rect t)).set ↔ _
  rw [View.set_slice_whole, Rect.mem_set_unit]
  exact Iff.rfl

/-- Every entry is in some written tile: row `i 0` is in tile `i 0 / 5000`. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 20 := N_3
  have hlt : (i 0).val / 5000 < grid3.N := by omega
  obtain ⟨e0, e1, e2, e3, e4, e5, e6, e7⟩ := idx_facts ⟨(i 0).val / 5000, hlt⟩
  refine ⟨⟨(i 0).val / 5000, hlt⟩, flush3_3 _, ?_⟩
  rw [mem_blk]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    have e6' : win3_3.index ⟨(i 0).val / 5000, hlt⟩ (0 : Fin 2) = (i 0).val / 5000 := e6
    omega
  | ⟨1, _⟩ =>
    show win3_3.index ⟨(i 0).val / 5000, hlt⟩ (1 : Fin 2) * 64 ≤ (i 1).val ∧ (i 1).val < win3_3.index ⟨(i 0).val / 5000, hlt⟩ (1 : Fin 2) * 64 + 64
    omega

/-- After the region the result array is `comb` of the operand arrays as the region found them. -/
theorem final (c : Dev nD) : (dat3 V c).arrAt 3 cfg3.N = comb (V c main_v47) (V c main_v61) (V c main_v62) :=
  (dat3 V c).arrAt_eq_of_cover 3 (comb (V c main_v47) (V c main_v61) (V c main_v62)) (fun t _ => flushed_eq V c t) cover

end Cert.KernelIdeal.Comb3

end
-- ==== Proof.Comb5.lean ====
/-
  Region 5 of the kernel program: the combine step on twenty row tiles of 5000 rows.

  At a grid point the body loads its 5000 × 64 tiles of the running features and of the aggregated messages and the
  one-row bias array, adds the first two, adds the bias row to every row, takes the maximum with zero and stores the
  tile.  Tile t of all three 100000-row arrays is rows 5000·t … 5000·t + 4999 and the bias array's one tile is all of it,
  so what point t writes back is tile t of ONE array, `comb x a b`.  The twenty tiles cover every row, hence after the
  region the result array is `comb` of the three operand arrays as the region found them.
-/
import proofs.«117244_j88579405512834_1_alg».proof.Proof.Gen.KernelIdeal.Frame
import proofs.«117244_j88579405512834_1_alg».proof.Proof.CombSpec
import Idealize.ShloMosaic.Lib.Pipeline.Value
import Idealize.ShloMosaic.Lib.ValueIdx
import Idealize.ShloMosaic.PureOps.Ideal.Laws

set_option maxRecDepth 16384

noncomputable section

namespace Cert.KernelIdeal.Comb5

open Cert.KernelIdeal Cert.KernelIdeal.Gen Cert.KernelIdeal.CombSpec Idealize.ShloMosaic Idealize.ShloMosaic.TcCoe Idealize.SL.Sem

/-- Row 0, column `j 1`: where entry `j` of a tile reads the bias row. -/
abbrev bjx (j : S5000x64.Idx) : S1x64.Idx := fun a => match a with
  | ⟨0, _⟩ => ⟨0, Nat.one_pos⟩
  | ⟨1, _⟩ => ⟨(j 1).val, (j 1).isLt⟩

/-- Entry `j` of the stored tile: the two loaded tiles at `j` added, plus the bias row at column `j 1`, cut off at zero
    (the casts to the same shape are the identity; the row is repeated down the tile). -/
theorem pay_apply (x0 x1 : Vec Ideal S5000x64 .f32) (x2 : Vec Ideal S1x64 .f32) (j : S5000x64.Idx) :
    k5_pay1 (F := Ideal) x0 x1 x2 j = max ((x0 j + x1 j) + x2 (bjx j)) 0 := by
  unfold k5_pay1
  simp only [shapeCast_self]
  show max ((x0 j + x1 j) + broadcastTo S5000x64 x2 broadcasts_S1x64_S5000x64 j) (Ideal.ofBits .f32 0x00000000#32) = _
  rw [Ideal.ofBits_zero_f32, broadcastTo_apply x2 broadcasts_S1x64_S5000x64 j (bjx j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]

/-! ## From tiles to the array -/

theorem hz : (![0, 0] : Fin 2 → Nat) = fun _ => 0 := funext fun a => by fin_cases a <;> rfl

/-- The four index maps over the grid: the three 100000-row arrays move down one tile per point and have one tile
    across; the bias array stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- What point `t` writes back is tile `t` of `comb` of the three operand arrays as the region finds them. -/
theorem flushed_eq (c : Dev nD) (t : Fin cfg5.N) :
    (dat5 V c).flushed 3 t = ((cfg5.win 3).blk t).view.read (Elt Ideal) (comb (V c main_v63) (V c main_v77) (V c main_v78)) := by
  show (cfg5.win 3).cut (grid5.coords t) ((dat5 V c).after 3 t) = _
  rw [after5_3]
  unfold out5_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ _ j).trans ?_
  show max (((show (⟨S100000x64, .f32⟩ : BufTy).Contents (Elt Ideal) from V c main_v63) (((cfg5.win 0).blk t).view.emb j) + (show (⟨S100000x64, .f32⟩ : BufTy).Contents (Elt Ideal) from V c main_v77) (((cfg5.win 1).blk t).view.emb j)) + (show (⟨S1x64, .f32⟩ : BufTy).Contents (Elt Ideal) from V c main_v78) (((cfg5.win 2).blk t).view.emb (bjx j))) 0
    = max (((show (⟨S100000x64, .f32⟩ : BufTy).Contents (Elt Ideal) from V c main_v63) (((cfg5.win 3).blk t).view.emb j) + (show (⟨S100000x64, .f32⟩ : BufTy).Contents (Elt Ideal) from V c main_v77) (((cfg5.win 3).blk t).view.emb j)) + (show (⟨S1x64, .f32⟩ : BufTy).Contents (Elt Ideal) from V c main_v78) (bix (((cfg5.win 3).blk t).view.emb j))) 0
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 64 + 1 * (j 1).val = win5_3.index t (1 : Fin 2) * 64 + 1 * (j 1).val; omega
  have h2 : ((cfg5.win 2).blk t).view.emb (bjx j) = bix (((cfg5.win 3).blk t).view.emb j) := by
    funext a; apply Fin.ext
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega
  rw [h0, h1, h2]

/-- An entry of the result array is in point `t`'s tile iff each coordinate is in the tile's range on its axis. -/
theorem mem_blk (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v79).slice (win5_3.rect t)).set ↔ _
  rw [View.set_slice_whole, Rect.mem_set_unit]
  exact Iff.rfl

/-- Every entry is in some written tile: row `i 0` is in tile `i 0 / 5000`. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : grid5.N = 20 := N_5
  have hlt : (i 0).val / 5000 < grid5.N := by omega
  obtain ⟨e0, e1, e2, e3, e4, e5, e6, e7⟩ := idx_facts ⟨(i 0).val / 5000, hlt⟩
  refine ⟨⟨(i 0).val / 5000, hlt⟩, flush5_3 _, ?_⟩
  rw [mem_blk]
  intro a
  match a with
  | ⟨0, _⟩ =>
    show win5_3.index ⟨(i 0).val / 5000, hlt⟩ (0 : Fin 2) * 5000 ≤ (i 0).val ∧ (i 0).val < win5_3.index ⟨(i 0).val / 5000, hlt⟩ (0 : Fin 2) * 5000 + 5000
    have e6' : win5_3.index ⟨(i 0).val / 5000, hlt⟩ (0 : Fin 2) = (i 0).val / 5000 := e6
    omega
  | ⟨1, _⟩ =>
    show win5_3.index ⟨(i 0).val / 5000, hlt⟩ (1 : Fin 2) * 64 ≤ (i 1).val ∧ (i 1).val < win5_3.index ⟨(i 0).val / 5000, hlt⟩ (1 : Fin 2) * 64 + 64
    omega

/-- After the region the result array is `comb` of the operand arrays as the region found them. -/
theorem final (c : Dev nD) : (dat5 V c).arrAt 3 cfg5.N = comb (V c main_v63) (V c main_v77) (V c main_v78) :=
  (dat5 V c).arrAt_eq_of_cover 3 (comb (V c main_v63) (V c main_v77) (V c main_v78)) (fun t _ => flushed_eq V c t) cover

end Cert.KernelIdeal.Comb5

end
-- ==== Proof.Comb7.lean ====
/-
  Region 7 of the kernel program: the combine step on twenty row tiles of 5000 rows.

  At a grid point the body loads its 5000 × 64 tiles of the running features and of the aggregated messages and the
  one-row bias array, adds the first two, adds the bias row to every row, takes the maximum with zero and stores the
  tile.  Tile t of all three 100000-row arrays is rows 5000·t … 5000·t + 4999 and the bias array's one tile is all of it,
  so what point t writes back is tile t of ONE array, `comb x a b`.  The twenty tiles cover every row, hence after the
  region the result array is `comb` of the three operand arrays as the region found them.
-/
import proofs.«117244_j88579405512834_1_alg».proof.Proof.Gen.KernelIdeal.Frame
import proofs.«117244_j88579405512834_1_alg».proof.Proof.CombSpec
import Idealize.ShloMosaic.Lib.Pipeline.Value
import Idealize.ShloMosaic.Lib.ValueIdx
import Idealize.ShloMosaic.PureOps.Ideal.Laws

set_option maxRecDepth 16384

noncomputable section

namespace Cert.KernelIdeal.Comb7

open Cert.KernelIdeal Cert.KernelIdeal.Gen Cert.KernelIdeal.CombSpec Idealize.ShloMosaic Idealize.ShloMosaic.TcCoe Idealize.SL.Sem

/-- Row 0, column `j 1`: where entry `j` of a tile reads the bias row. -/
abbrev bjx (j : S5000x64.Idx) : S1x64.Idx := fun a => match a with
  | ⟨0, _⟩ => ⟨0, Nat.one_pos⟩
  | ⟨1, _⟩ => ⟨(j 1).val, (j 1).isLt⟩

/-- Entry `j` of the stored tile: the two loaded tiles at `j` added, plus the bias row at column `j 1`, cut off at zero
    (the casts to the same shape are the identity; the row is repeated down the tile). -/
theorem pay_apply (x0 x1 : Vec Ideal S5000x64 .f32) (x2 : Vec Ideal S1x64 .f32) (j : S5000x64.Idx) :
    k7_pay1 (F := Ideal) x0 x1 x2 j = max ((x0 j + x1 j) + x2 (bjx j)) 0 := by
  unfold k7_pay1
  simp only [shapeCast_self]
  show max ((x0 j + x1 j) + broadcastTo S5000x64 x2 broadcasts_S1x64_S5000x64 j) (Ideal.ofBits .f32 0x00000000#32) = _
  rw [Ideal.ofBits_zero_f32, broadcastTo_apply x2 broadcasts_S1x64_S5000x64 j (bjx j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]

/-! ## From tiles to the array -/

theorem hz : (![0, 0] : Fin 2 → Nat) = fun _ => 0 := funext fun a => by fin_cases a <;> rfl

/-- The four index maps over the grid: the three 100000-row arrays move down one tile per point and have one tile
    across; the bias array stays. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

variable (V : (c : Dev nD) → (b : Ref sig .tc) → Buf (Elt Ideal) ((c : Thread nD τ).loc b))

/-- What point `t` writes back is tile `t` of `comb` of the three operand arrays as the region finds them. -/
theorem flushed_eq (c : Dev nD) (t : Fin cfg7.N) :
    (dat7 V c).flushed 3 t = ((cfg7.win 3).blk t).view.read (Elt Ideal) (comb (V c main_v79) (V c main_v93) (V c main_v94)) := by
  show (cfg7.win 3).cut (grid7.coords t) ((dat7 V c).after 3 t) = _
  rw [after7_3]
  unfold out7_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ _ j).trans ?_
  show max (((show (⟨S100000x64, .f32⟩ : BufTy).Contents (Elt Ideal) from V c main_v79) (((cfg7.win 0).blk t).view.emb j) + (show (⟨S100000x64, .f32⟩ : BufTy).Contents (Elt Ideal) from V c main_v93) (((cfg7.win 1).blk t).view.emb j)) + (show (⟨S1x64, .f32⟩ : BufTy).Contents (Elt Ideal) from V c main_v94) (((cfg7.win 2).blk t).view.emb (bjx j))) 0
    = max (((show (⟨S100000x64, .f32⟩ : BufTy).Contents (Elt Ideal) from V c main_v79) (((cfg7.win 3).blk t).view.emb j) + (show (⟨S100000x64, .f32⟩ : BufTy).Contents (Elt Ideal) from V c main_v93) (((cfg7.win 3).blk t).view.emb j)) + (show (⟨S1x64, .f32⟩ : BufTy).Contents (Elt Ideal) from V c main_v94) (bix (((cfg7.win 3).blk t).view.emb j))) 0
  have h0 : ((cfg7.win 0).blk t).view.emb j = ((cfg7.win 3).blk t).view.emb j := by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * (j 1).val = win7_3.index t (1 : Fin 2) * 64 + 1 * (j 1).val; omega
  have h1 : ((cfg7.win 1).blk t).view.emb j = ((cfg7.win 3).blk t).view.emb j := by
    funext a; apply Fin.ext
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 64 + 1 * (j 1).val = win7_3.index t (1 : Fin 2) * 64 + 1 * (j 1).val; omega
  have h2 : ((cfg7.win 2).blk t).view.emb (bjx j) = bix (((cfg7.win 3).blk t).view.emb j) := by
    funext a; apply Fin.ext
    match a with
    | ⟨0, _⟩ => show win7_2.index t (0 : Fin 2) * 1 + 1 * 0 = 0; omega
    | ⟨1, _⟩ => show win7_2.index t (1 : Fin 2) * 64 + 1 * (j 1).val = win7_3.index t (1 : Fin 2) * 64 + 1 * (j 1).val; omega
  rw [h0, h1, h2]

/-- An entry of the result array is in point `t`'s tile iff each coordinate is in the tile's range on its axis. -/
theorem mem_blk (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v95).slice (win7_3.rect t)).set ↔ _
  rw [View.set_slice_whole, Rect.mem_set_unit]
  exact Iff.rfl

/-- Every entry is in some written tile: row `i 0` is in tile `i 0 / 5000`. -/
theorem cover (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  have hN : grid7.N = 20 := N_7
  have hlt : (i 0).val / 5000 < grid7.N := by omega
  obtain ⟨e0, e1, e2, e3, e4, e5, e6, e7⟩ := idx_facts ⟨(i 0).val / 5000, hlt⟩
  refine ⟨⟨(i 0).val / 5000, hlt⟩, flush7_3 _, ?_⟩
  rw [mem_blk]
  intro a
  match a with
  | ⟨0, _⟩ =>
    show win7_3.index ⟨(i 0).val / 5000, hlt⟩ (0 : Fin 2) * 5000 ≤ (i 0).val ∧ (i 0).val < win7_3.index ⟨(i 0).val / 5000, hlt⟩ (0 : Fin 2) * 5000 + 5000
    have e6' : win7_3.index ⟨(i 0).val / 5000, hlt⟩ (0 : Fin 2) = (i 0).val / 5000 := e6
    omega
  | ⟨1, _⟩ =>
    show win7_3.index ⟨(i 0).val / 5000, hlt⟩ (1 : Fin 2) * 64 ≤ (i 1).val ∧ (i 1).val < win7_3.index ⟨(i 0).val / 5000, hlt⟩ (1 : Fin 2) * 64 + 64
    omega

/-- After the region the result array is `comb` of the operand arrays as the region found them. -/
theorem final (c : Dev nD) : (dat7 V c).arrAt 3 cfg7.N = comb (V c main_v79) (V c main_v93) (V c main_v94) :=
  (dat7 V c).arrAt_eq_of_cover 3 (comb (V c main_v79) (V c main_v93) (V c main_v94)) (fun t _ => flushed_eq V c t) cover

end Cert.KernelIdeal.Comb7

end
-- ==== Proof.Comb9.lean ====
/-
  Region 9 of the kernel program: the combine step on twenty row tiles of 5000 rows.

  At a grid point the body loads its 5000 × 64 tiles of the running features and of the aggregated messages and the
  one-row bias array, adds the first two, adds the bias row to every row, takes the maximum with zero and stores the
  tile.  Tile t of all three 100000-row arrays is rows 5000·t … 5000·t + 4999 and the bias array's one tile is all of it,
  so what point t writes back is tile t of ONE array, `comb x a b`.  The twenty tiles cover every row, hence after the
  region the result array is `comb` of the three operand arrays as the region found them.
-/
import proofs.«117244_j88579405512834_1_alg».proof.Proof.Gen.KernelIdeal.Frame
import proofs.«117244_j88579405512834_1_alg».proof.Proof.CombSpec
import Idealize.ShloMosaic.Lib.Pipeline.Value
import Idealize.ShloMosaic.Lib.ValueIdx
import Idealize.ShloMosaic.PureOps.Ideal.Laws

set_option maxRecDepth 16384

noncomputable section

namespace Cert.KernelIdeal.Comb9

open Cert.KernelIdeal Cert.KernelIdeal.Gen Cert.KernelIdeal.CombSpec Idealize.ShloMosaic Idealize.ShloMosaic.TcCoe Idealize.SL.Sem

/-- Row 0, column `j 1`: where entry `j` of a tile reads the bias row. -/
abbrev bjx (j : S5000x64.Idx) : S1x64.Idx := fun a => match a with
  | ⟨0, _⟩ => ⟨0, Nat.one_pos⟩
  | ⟨1, _⟩ => ⟨(j 1).val, (j 1).isLt⟩

/-- Entry `j` of the stored tile: the two loaded tiles at `j` added, plus the bias row at column `j 1`, cut off at zero
    (the casts to the same shape are the identity; the row is repeated down the tile). -/
theorem pay_apply (x0 x1 : Vec Ideal S5000x64 .f32) (x2 : Vec Ideal S1x64 .f32) (j : S5000x64.Idx) :
    k9_pay1 (F := Ideal) x0 x1 x2 j = max ((x0 j + x1 j) + x2 (bjx j)) 0 := by
  unfold k9_pay1
  simp only [shapeCast_self]
  show max ((x0 j + x1 j) + broadcastTo S5000x64 x2 broadcasts_S1x64_S5000x64 j) (Ideal.ofBits .f32 0x00000000#32) = _
  rw [Ideal.ofBits_zero_f32, broadcastTo_apply x2 broadcasts_S1x64_S5000x64 j (bjx j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]

/-! ## From tiles to the array -/

theorem hz : (![0, 0] : Fin 2 → Nat) = fun _ => 0 := funext fun a => by fin_cases a <;> rfl

/-- The four index maps over the grid: the three 100000-row arrays move down one tile per point and have one tile
    across; the bias array stays. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

variable (V : (c : Dev nD) → (b : Ref sig .tc) → Buf (Elt Ideal) ((c : Thread nD τ).loc b))

/-- What point `t` writes back is tile `t` of `comb` of the three operand arrays as the region finds them. -/
theorem flushed_eq (c : Dev nD) (t : Fin cfg9.N) :
    (dat9 V c).flushed 3 t = ((cfg9.win 3).blk t).view.read (Elt Ideal) (comb (V c main_v95) (V c main_v109) (V c main_v110)) := by
  show (cfg9.win 3).cut (grid9.coords t) ((dat9 V c).after 3 t) = _
  rw [after9_3]
  unfold out9_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ _ j).trans ?_
  show max (((show (⟨S100000x64, .f32⟩ : BufTy).Contents (Elt Ideal) from V c main_v95) (((cfg9.win 0).blk t).view.emb j) + (show (⟨S100000x64, .f32⟩ : BufTy).Contents (Elt Ideal) from V c main_v109) (((cfg9.win 1).blk t).view.emb j)) + (show (⟨S1x64, .f32⟩ : BufTy).Contents (Elt Ideal) from V c main_v110) (((cfg9.win 2).blk t).view.emb (bjx j))) 0
    = max (((show (⟨S100000x64, .f32⟩ : BufTy).Contents (Elt Ideal) from V c main_v95) (((cfg9.win 3).blk t).view.emb j) + (show (⟨S100000x64, .f32⟩ : BufTy).Contents (Elt Ideal) from V c main_v109) (((cfg9.win 3).blk t).view.emb j)) + (show (⟨S1x64, .f32⟩ : BufTy).Contents (Elt Ideal) from V c main_v110) (bix (((cfg9.win 3).blk t).view.emb j))) 0
  have h0 : ((cfg9.win 0).blk t).view.emb j = ((cfg9.win 3).blk t).view.emb j := by
    funext a; apply Fin.ext
    match a with
    | ⟨0, _⟩ => show win9_0.index t (0 : Fin 2) * 5000 + 1 * (j 0).val = win9_3.index t (0 : Fin 2) * 5000 + 1 * (j 0).val; omega
    | ⟨1, _⟩ => show win9_0.index t (1 : Fin 2) * 64 + 1 * (j 1).val = win9_3.index t (1 : Fin 2) * 64 + 1 * (j 1).val; omega
  have h1 : ((cfg9.win 1).blk t).view.emb j = ((cfg9.win 3).blk t).view.emb j := by
    funext a; apply Fin.ext
    match a with
    | ⟨0, _⟩ => show win9_1.index t (0 : Fin 2) * 5000 + 1 * (j 0).val = win9_3.index t (0 : Fin 2) * 5000 + 1 * (j 0).val; omega
    | ⟨1, _⟩ => show win9_1.index t (1 : Fin 2) * 64 + 1 * (j 1).val = win9_3.index t (1 : Fin 2) * 64 + 1 * (j 1).val; omega
  have h2 : ((cfg9.win 2).blk t).view.emb (bjx j) = bix (((cfg9.win 3).blk t).view.emb j) := by
    funext a; apply Fin.ext
    match a with
    | ⟨0, _⟩ => show win9_2.index t (0 : Fin 2) * 1 + 1 * 0 = 0; omega
    | ⟨1, _⟩ => show win9_2.index t (1 : Fin 2) * 64 + 1 * (j 1).val = win9_3.index t (1 : Fin 2) * 64 + 1 * (j 1).val; omega
  rw [h0, h1, h2]

/-- An entry of the result array is in point `t`'s tile iff each coordinate is in the tile's range on its axis. -/
theorem mem_blk (t : Fin cfg9.N) (i : S100000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole main_v111).slice (win9_3.rect t)).set ↔ _
  rw [View.set_slice_whole, Rect.mem_set_unit]
  exact Iff.rfl

/-- Every entry is in some written tile: row `i 0` is in tile `i 0 / 5000`. -/
theorem cover (i : S100000x64.Idx) : ∃ t : Fin cfg9.N, (cfg9.win 3).flush t = true ∧ i ∈ ((cfg9.win 3).blk t).view.set := by
  have hi0 : (i 0).val < 100000 := (i 0).isLt
  have hi1 : (i 1).val < 64 := (i 1).isLt
  have hN : grid9.N = 20 := N_9
  have hlt : (i 0).val / 5000 < grid9.N := by omega
  obtain ⟨e0, e1, e2, e3, e4, e5, e6, e7⟩ := idx_facts ⟨(i 0).val / 5000, hlt⟩
  refine ⟨⟨(i 0).val / 5000, hlt⟩, flush9_3 _, ?_⟩
  rw [mem_blk]
  intro a
  match a with
  | ⟨0, _⟩ =>
    show win9_3.index ⟨(i 0).val / 5000, hlt⟩ (0 : Fin 2) * 5000 ≤ (i 0).val ∧ (i 0).val < win9_3.index ⟨(i 0).val / 5000, hlt⟩ (0 : Fin 2) * 5000 + 5000
    have e6' : win9_3.index ⟨(i 0).val / 5000, hlt⟩ (0 : Fin 2) = (i 0).val / 5000 := e6
    omega
  | ⟨1, _⟩ =>
    show win9_3.index ⟨(i 0).val / 5000, hlt⟩ (1 : Fin 2) * 64 ≤ (i 1).val ∧ (i 1).val < win9_3.index ⟨(i 0).val / 5000, hlt⟩ (1 : Fin 2) * 64 + 64
    omega

/-- After the region the result array is `comb` of the operand arrays as the region found them. -/
theorem final (c : Dev nD) : (dat9 V c).arrAt 3 cfg9.N = comb (V c main_v95) (V c main_v109) (V c main_v110) :=
  (dat9 V c).arrAt_eq_of_cover 3 (comb (V c main_v95) (V c main_v109) (V c main_v110)) (fun t _ => flushed_eq V c t) cover

end Cert.KernelIdeal.Comb9

end
-- ==== Proof.KernelRun.lean ====
/-
  The kernel program's run with its result array kept, and each of its ten regions read as one operation.

  The program is eleven stretches of host operations with ten pipelined regions between them.  Its frame is proved
  (in the generated module) by following the core's buffer contents from boundary to boundary: a stretch rewrites
  the buffers its operations write, a region replaces its arrays by what its pipeline leaves.  The same run, read
  at the result buffer as well as at the arguments, gives the result array as the last boundary's contents
  (`run_all`).  For each region the pipeline leaves its inputs as entered and its output at one whole-array function
  of them — the product `Mat‹p›.prod` for the five matmul regions, `CombSpec.comb` for the five combine regions —,
  so the region acts on the contents exactly as one binary (ternary) operation writing that function's value
  (`W‹k›_eq`).  The whole program is then, for buffer contents, one straight line of operations.
-/
import proofs.«117244_j88579405512834_1_alg».proof.Proof.Gen.KernelIdeal.Frame
import proofs.«117244_j88579405512834_1_alg».proof.Proof.LibRegionAsOp
import proofs.«117244_j88579405512834_1_alg».proof.Proof.Mat0
import proofs.«117244_j88579405512834_1_alg».proof.Proof.Mat2
import proofs.«117244_j88579405512834_1_alg».proof.Proof.Mat4
import proofs.«117244_j88579405512834_1_alg».proof.Proof.Mat6
import proofs.«117244_j88579405512834_1_alg».proof.Proof.Mat8
import proofs.«117244_j88579405512834_1_alg».proof.Proof.Comb1
import proofs.«117244_j88579405512834_1_alg».proof.Proof.Comb3
import proofs.«117244_j88579405512834_1_alg».proof.Proof.Comb5
import proofs.«117244_j88579405512834_1_alg».proof.Proof.Comb7
import proofs.«117244_j88579405512834_1_alg».proof.Proof.Comb9

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last
    boundary's contents and the argument arrays as launched. -/
theorem run_all : θ_run defs (onTc (τ := τ) (main (F := F))) ⟨m, fun _ => 0, ρ⟩ (fun r => ∀ c : Dev nD,
      r.2.mem ((c.tc : Thread nD τ).loc main_v112) = W23 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v112 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c)⟩)

end Run

section Regions

variable (m : (ℓ : Loc nD τ sig) → Buf (Elt Ideal) ℓ) (ρ : Dev nD → PrngReg)

/-- Region 0 as one operation: main_v33 takes the product of main_arg0 by main_arg2. -/
abbrev op0 : HloOp τ sig (Elt Ideal) :=
  StableHlo.binary main_arg0 main_arg2 main_v33 (Mat0.prod : (⟨S100000x64, .f32⟩ : BufTy).Contents (Elt Ideal) → (⟨S64x64, .f32⟩ : BufTy).Contents (Elt Ideal) → (⟨S100000x64, .f32⟩ : BufTy).Contents (Elt Ideal))
set_option maxHeartbeats 4000000 in
theorem W4_eq (c : Dev nD) : W4 m ρ c = (op0).result (W3 m ρ c) := by
  unfold W4
  exact Cert.Lib.withArrays_eq_result spec0 launch0.win.arr_inj c (W3 m ρ c) _ op0 2 rfl
    ((Mat0.final (V3 m ρ) c).trans (StableHlo.binary_result main_arg0 main_arg2 main_v33 _ _ _ _ (W3 m ρ c)).symm)
    (fun w => match w with
      | 0 => fun _ => ((dat0 (V3 m ρ) c).arrAt_in 0 rfl _).trans (A_eq0 (V3 m ρ) c 0)
      | 1 => fun _ => ((dat0 (V3 m ρ) c).arrAt_in 1 rfl _).trans (A_eq0 (V3 m ρ) c 1)
      | 2 => fun h => absurd rfl h
      | ⟨_ + 3, h⟩ => absurd h (Nat.not_lt.2 (Nat.le_add_left _ _)))

/-- Region 2 as one operation: main_v49 takes the product of main_v48 by main_arg4. -/
abbrev op2 : HloOp τ sig (Elt Ideal) :=
  StableHlo.binary main_v48 main_arg4 main_v49 (Mat2.prod : (⟨S100000x128, .f32⟩ : BufTy).Contents (Elt Ideal) → (⟨S128x64, .f32⟩ : BufTy).Contents (Elt Ideal) → (⟨S100000x64, .f32⟩ : BufTy).Contents (Elt Ideal))
set_option maxHeartbeats 4000000 in
theorem W8_eq (c : Dev nD) : W8 m ρ c = (op2).result (W7 m ρ c) := by
  unfold W8
  exact Cert.Lib.withArrays_eq_result spec2 launch2.win.arr_inj c (W7 m ρ c) _ op2 2 rfl
    ((Mat2.final (V7 m ρ) c).trans (StableHlo.binary_result main_v48 main_arg4 main_v49 _ _ _ _ (W7 m ρ c)).symm)
    (fun w => match w with
      | 0 => fun _ => ((dat2 (V7 m ρ) c).arrAt_in 0 rfl _).trans (A_eq2 (V7 m ρ) c 0)
      | 1 => fun _ => ((dat2 (V7 m ρ) c).arrAt_in 1 rfl _).trans (A_eq2 (V7 m ρ) c 1)
      | 2 => fun h => absurd rfl h
      | ⟨_ + 3, h⟩ => absurd h (Nat.not_lt.2 (Nat.le_add_left _ _)))

/-- Region 4 as one operation: main_v65 takes the product of main_v64 by main_arg6. -/
abbrev op4 : HloOp τ sig (Elt Ideal) :=
  StableHlo.binary main_v64 main_arg6 main_v65 (Mat4.prod : (⟨S100000x192, .f32⟩ : BufTy).Contents (Elt Ideal) → (⟨S192x64, .f32⟩ : BufTy).Contents (Elt Ideal) → (⟨S100000x64, .f32⟩ : BufTy).Contents (Elt Ideal))
set_option maxHeartbeats 4000000 in
theorem W12_eq (c : Dev nD) : W12 m ρ c = (op4).result (W11 m ρ c) := by
  unfold W12
  exact Cert.Lib.withArrays_eq_result spec4 launch4.win.arr_inj c (W11 m ρ c) _ op4 2 rfl
    ((Mat4.final (V11 m ρ) c).trans (StableHlo.binary_result main_v64 main_arg6 main_v65 _ _ _ _ (W11 m ρ c)).symm)
    (fun w => match w with
      | 0 => fun _ => ((dat4 (V11 m ρ) c).arrAt_in 0 rfl _).trans (A_eq4 (V11 m ρ) c 0)
      | 1 => fun _ => ((dat4 (V11 m ρ) c).arrAt_in 1 rfl _).trans (A_eq4 (V11 m ρ) c 1)
      | 2 => fun h => absurd rfl h
      | ⟨_ + 3, h⟩ => absurd h (Nat.not_lt.2 (Nat.le_add_left _ _)))

/-- Region 6 as one operation: main_v81 takes the product of main_v80 by main_arg8. -/
abbrev op6 : HloOp τ sig (Elt Ideal) :=
  StableHlo.binary main_v80 main_arg8 main_v81 (Mat6.prod : (⟨S100000x256, .f32⟩ : BufTy).Contents (Elt Ideal) → (⟨S256x64, .f32⟩ : BufTy).Contents (Elt Ideal) → (⟨S100000x64, .f32⟩ : BufTy).Contents (Elt Ideal))
set_option maxHeartbeats 4000000 in
theorem W16_eq (c : Dev nD) : W16 m ρ c = (op6).result (W15 m ρ c) := by
  unfold W16
  exact Cert.Lib.withArrays_eq_result spec6 launch6.win.arr_inj c (W15 m ρ c) _ op6 2 rfl
    ((Mat6.final (V15 m ρ) c).trans (StableHlo.binary_result main_v80 main_arg8 main_v81 _ _ _ _ (W15 m ρ c)).symm)
    (fun w => match w with
      | 0 => fun _ => ((dat6 (V15 m ρ) c).arrAt_in 0 rfl _).trans (A_eq6 (V15 m ρ) c 0)
      | 1 => fun _ => ((dat6 (V15 m ρ) c).arrAt_in 1 rfl _).trans (A_eq6 (V15 m ρ) c 1)
      | 2 => fun h => absurd rfl h
      | ⟨_ + 3, h⟩ => absurd h (Nat.not_lt.2 (Nat.le_add_left _ _)))

/-- Region 8 as one operation: main_v97 takes the product of main_v96 by main_arg10. -/
abbrev op8 : HloOp τ sig (Elt Ideal) :=
  StableHlo.binary main_v96 main_arg10 main_v97 (Mat8.prod : (⟨S100000x320, .f32⟩ : BufTy).Contents (Elt Ideal) → (⟨S320x64, .f32⟩ : BufTy).Contents (Elt Ideal) → (⟨S100000x64, .f32⟩ : BufTy).Contents (Elt Ideal))
set_option maxHeartbeats 4000000 in
theorem W20_eq (c : Dev nD) : W20 m ρ c = (op8).result (W19 m ρ c) := by
  unfold W20
  exact Cert.Lib.withArrays_eq_result spec8 launch8.win.arr_inj c (W19 m ρ c) _ op8 2 rfl
    ((Mat8.final (V19 m ρ) c).trans (StableHlo.binary_result main_v96 main_arg10 main_v97 _ _ _ _ (W19 m ρ c)).symm)
    (fun w => match w with
      | 0 => fun _ => ((dat8 (V19 m ρ) c).arrAt_in 0 rfl _).trans (A_eq8 (V19 m ρ) c 0)
      | 1 => fun _ => ((dat8 (V19 m ρ) c).arrAt_in 1 rfl _).trans (A_eq8 (V19 m ρ) c 1)
      | 2 => fun h => absurd rfl h
      | ⟨_ + 3, h⟩ => absurd h (Nat.not_lt.2 (Nat.le_add_left _ _)))

/-- Region 1 as one operation: main_v47 takes the combine step of main_arg0, main_v45 and the bias row main_v46. -/
abbrev op1 : HloOp τ sig (Elt Ideal) :=
  StableHlo.ternary main_arg0 main_v45 main_v46 main_v47 (CombSpec.comb : (⟨S100000x64, .f32⟩ : BufTy).Contents (Elt Ideal) → (⟨S100000x64, .f32⟩ : BufTy).Contents (Elt Ideal) → (⟨S1x64, .f32⟩ : BufTy).Contents (Elt Ideal) → (⟨S100000x64, .f32⟩ : BufTy).Contents (Elt Ideal))
set_option maxHeartbeats 4000000 in
theorem W6_eq (c : Dev nD) : W6 m ρ c = (op1).result (W5 m ρ c) := by
  unfold W6
  exact Cert.Lib.withArrays_eq_result spec1 launch1.win.arr_inj c (W5 m ρ c) _ op1 3 rfl
    ((Comb1.final (V5 m ρ) c).trans (StableHlo.ternary_result main_arg0 main_v45 main_v46 main_v47 _ _ _ _ _ (W5 m ρ c)).symm)
    (fun w => match w with
      | 0 => fun _ => ((dat1 (V5 m ρ) c).arrAt_in 0 rfl _).trans (A_eq1 (V5 m ρ) c 0)
      | 1 => fun _ => ((dat1 (V5 m ρ) c).arrAt_in 1 rfl _).trans (A_eq1 (V5 m ρ) c 1)
      | 2 => fun _ => ((dat1 (V5 m ρ) c).arrAt_in 2 rfl _).trans (A_eq1 (V5 m ρ) c 2)
      | 3 => fun h => absurd rfl h
      | ⟨_ + 4, h⟩ => absurd h (Nat.not_lt.2 (Nat.le_add_left _ _)))

/-- Region 3 as one operation: main_v63 takes the combine step of main_v47, main_v61 and the bias row main_v62. -/
abbrev op3 : HloOp τ sig (Elt Ideal) :=
  StableHlo.ternary main_v47 main_v61 main_v62 main_v63 (CombSpec.comb : (⟨S100000x64, .f32⟩ : BufTy).Contents (Elt Ideal) → (⟨S100000x64, .f32⟩ : BufTy).Contents (Elt Ideal) → (⟨S1x64, .f32⟩ : BufTy).Contents (Elt Ideal) → (⟨S100000x64, .f32⟩ : BufTy).Contents (Elt Ideal))
set_option maxHeartbeats 4000000 in
theorem W10_eq (c : Dev nD) : W10 m ρ c = (op3).result (W9 m ρ c) := by
  unfold W10
  exact Cert.Lib.withArrays_eq_result spec3 launch3.win.arr_inj c (W9 m ρ c) _ op3 3 rfl
    ((Comb3.final (V9 m ρ) c).trans (StableHlo.ternary_result main_v47 main_v61 main_v62 main_v63 _ _ _ _ _ (W9 m ρ c)).symm)
    (fun w => match w with
      | 0 => fun _ => ((dat3 (V9 m ρ) c).arrAt_in 0 rfl _).trans (A_eq3 (V9 m ρ) c 0)
      | 1 => fun _ => ((dat3 (V9 m ρ) c).arrAt_in 1 rfl _).trans (A_eq3 (V9 m ρ) c 1)
      | 2 => fun _ => ((dat3 (V9 m ρ) c).arrAt_in 2 rfl _).trans (A_eq3 (V9 m ρ) c 2)
      | 3 => fun h => absurd rfl h
      | ⟨_ + 4, h⟩ => absurd h (Nat.not_lt.2 (Nat.le_add_left _ _)))

/-- Region 5 as one operation: main_v79 takes the combine step of main_v63, main_v77 and the bias row main_v78. -/
abbrev op5 : HloOp τ sig (Elt Ideal) :=
  StableHlo.ternary main_v63 main_v77 main_v78 main_v79 (CombSpec.comb : (⟨S100000x64, .f32⟩ : BufTy).Contents (Elt Ideal) → (⟨S100000x64, .f32⟩ : BufTy).Contents (Elt Ideal) → (⟨S1x64, .f32⟩ : BufTy).Contents (Elt Ideal) → (⟨S100000x64, .f32⟩ : BufTy).Contents (Elt Ideal))
set_option maxHeartbeats 4000000 in
theorem W14_eq (c : Dev nD) : W14 m ρ c = (op5).result (W13 m ρ c) := by
  unfold W14
  exact Cert.Lib.withArrays_eq_result spec5 launch5.win.arr_inj c (W13 m ρ c) _ op5 3 rfl
    ((Comb5.final (V13 m ρ) c).trans (StableHlo.ternary_result main_v63 main_v77 main_v78 main_v79 _ _ _ _ _ (W13 m ρ c)).symm)
    (fun w => match w with
      | 0 => fun _ => ((dat5 (V13 m ρ) c).arrAt_in 0 rfl _).trans (A_eq5 (V13 m ρ) c 0)
      | 1 => fun _ => ((dat5 (V13 m ρ) c).arrAt_in 1 rfl _).trans (A_eq5 (V13 m ρ) c 1)
      | 2 => fun _ => ((dat5 (V13 m ρ) c).arrAt_in 2 rfl _).trans (A_eq5 (V13 m ρ) c 2)
      | 3 => fun h => absurd rfl h
      | ⟨_ + 4, h⟩ => absurd h (Nat.not_lt.2 (Nat.le_add_left _ _)))

/-- Region 7 as one operation: main_v95 takes the combine step of main_v79, main_v93 and the bias row main_v94. -/
abbrev op7 : HloOp τ sig (Elt Ideal) :=
  StableHlo.ternary main_v79 main_v93 main_v94 main_v95 (CombSpec.comb : (⟨S100000x64, .f32⟩ : BufTy).Contents (Elt Ideal) → (⟨S100000x64, .f32⟩ : BufTy).Contents (Elt Ideal) → (⟨S1x64, .f32⟩ : BufTy).Contents (Elt Ideal) → (⟨S100000x64, .f32⟩ : BufTy).Contents (Elt Ideal))
set_option maxHeartbeats 4000000 in
theorem W18_eq (c : Dev nD) : W18 m ρ c = (op7).result (W17 m ρ c) := by
  unfold W18
  exact Cert.Lib.withArrays_eq_result spec7 launch7.win.arr_inj c (W17 m ρ c) _ op7 3 rfl
    ((Comb7.final (V17 m ρ) c).trans (StableHlo.ternary_result main_v79 main_v93 main_v94 main_v95 _ _ _ _ _ (W17 m ρ c)).symm)
    (fun w => match w with
      | 0 => fun _ => ((dat7 (V17 m ρ) c).arrAt_in 0 rfl _).trans (A_eq7 (V17 m ρ) c 0)
      | 1 => fun _ => ((dat7 (V17 m ρ) c).arrAt_in 1 rfl _).trans (A_eq7 (V17 m ρ) c 1)
      | 2 => fun _ => ((dat7 (V17 m ρ) c).arrAt_in 2 rfl _).trans (A_eq7 (V17 m ρ) c 2)
      | 3 => fun h => absurd rfl h
      | ⟨_ + 4, h⟩ => absurd h (Nat.not_lt.2 (Nat.le_add_left _ _)))

/-- Region 9 as one operation: main_v111 takes the combine step of main_v95, main_v109 and the bias row main_v110. -/
abbrev op9 : HloOp τ sig (Elt Ideal) :=
  StableHlo.ternary main_v95 main_v109 main_v110 main_v111 (CombSpec.comb : (⟨S100000x64, .f32⟩ : BufTy).Contents (Elt Ideal) → (⟨S100000x64, .f32⟩ : BufTy).Contents (Elt Ideal) → (⟨S1x64, .f32⟩ : BufTy).Contents (Elt Ideal) → (⟨S100000x64, .f32⟩ : BufTy).Contents (Elt Ideal))
set_option maxHeartbeats 4000000 in
theorem W22_eq (c : Dev nD) : W22 m ρ c = (op9).result (W21 m ρ c) := by
  unfold W22
  exact Cert.Lib.withArrays_eq_result spec9 launch9.win.arr_inj c (W21 m ρ c) _ op9 3 rfl
    ((Comb9.final (V21 m ρ) c).trans (StableHlo.ternary_result main_v95 main_v109 main_v110 main_v111 _ _ _ _ _ (W21 m ρ c)).symm)
    (fun w => match w with
      | 0 => fun _ => ((dat9 (V21 m ρ) c).arrAt_in 0 rfl _).trans (A_eq9 (V21 m ρ) c 0)
      | 1 => fun _ => ((dat9 (V21 m ρ) c).arrAt_in 1 rfl _).trans (A_eq9 (V21 m ρ) c 1)
      | 2 => fun _ => ((dat9 (V21 m ρ) c).arrAt_in 2 rfl _).trans (A_eq9 (V21 m ρ) c 2)
      | 3 => fun h => absurd rfl h
      | ⟨_ + 4, h⟩ => absurd h (Nat.not_lt.2 (Nat.le_add_left _ _)))

/-- The three operations of the inlined `@_where` (the inverse square-root degree where the degree is positive, zero
    elsewhere), at the buffers themselves.  The printed ones reach each buffer through a typed reference whose type
    equation holds by computation, so their functions are the same functions. -/
abbrev whereOps : List (HloOp τ sig (Elt Ideal)) :=
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v12 main_v15 main_call0_v1 main_v16 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]
theorem hostOps0_1_eq : (hostOps0_1 : List (HloOp τ sig (Elt Ideal))) = whereOps := rfl

end Regions

end Cert.KernelIdeal.KRun

end
-- ==== Proof.KSpec.lean ====
/-
  What the kernel program computes, as one function of its twelve arguments.

  With `src`, `dst` the edge lists extended by the self-loops and `norm` the symmetric degree normalisation of each
  edge (all three functions of the edge array alone), a layer sends the array x of everything so far and the
  features cur to
      cur' = comb cur (agg (prod x W)) (bias b),        x' = x with cur' appended as 64 new columns,
  where `prod` is the matrix product, `agg h` gathers row src(e) of h for every edge e, scales it by norm(e) and adds
  it into row dst(e) of a zero array, and `comb` adds features, messages and the bias row and cuts off at zero.
  The host operations (the index arithmetic, gathers, the scatter-add, the normalisation) are the same operations in
  the kernel program and in the reference; they are spelt here through the reference's own stages, and never opened.
-/
import proofs.«117244_j88579405512834_1_alg».proof.Proof.RefRead
import proofs.«117244_j88579405512834_1_alg».proof.Proof.CombSpec
import proofs.«117244_j88579405512834_1_alg».proof.Proof.Mat0
import proofs.«117244_j88579405512834_1_alg».proof.Proof.Mat2
import proofs.«117244_j88579405512834_1_alg».proof.Proof.Mat4
import proofs.«117244_j88579405512834_1_alg».proof.Proof.Mat6
import proofs.«117244_j88579405512834_1_alg».proof.Proof.Mat8

set_option maxRecDepth 16384

noncomputable section

namespace Cert.Bridge

open Cert.ReferenceIdeal Cert.ReferenceIdeal.Gen Cert.ReferenceIdeal.ReadP Idealize.ShloMosaic

/-- The messages of `h`: row src(e) of `h` times norm(e), added into row dst(e), over all edges and self-loops. -/
def agg (h : (⟨S100000x64, .f32⟩ : BufTy).Contents (Elt Ideal)) (e : (⟨S2x1600000, .i32⟩ : BufTy).Contents (Elt Ideal)) : (⟨S100000x64, .f32⟩ : BufTy).Contents (Elt Ideal) :=
  Host.scatterAdd (F := Ideal) (φ := .f32) scatter_S100000x64_S1700000x1_S1700000x64_1_0_0_1 (val_main_v43 (F := Ideal)) (val_main_v44 (F := Ideal) e)
    (mulf (F := Ideal) (φ := .f32) (Host.gather gather_S100000x64_S1700000x1_S1700000x64_1_0_n_n_0_1_164 h (val_main_v38 (F := Ideal) e)) (val_main_v41 (F := Ideal) e))

/-- A bias vector as a one-row array (its 64 entries read in the same order). -/
def bias (b : (⟨S64, .f32⟩ : BufTy).Contents (Elt Ideal)) : (⟨S1x64, .f32⟩ : BufTy).Contents (Elt Ideal) :=
  shapeCast S1x64 b Cert.KernelIdeal.Gen.shapeCasts_S64_S1x64

/-- The features after layer 1: the combine step of the previous features, the aggregated messages of the
    product of everything so far by the layer's weights, and the layer's bias row. -/
def c1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) : (⟨S100000x64, .f32⟩ : BufTy).Contents (Elt Ideal) :=
  Cert.KernelIdeal.CombSpec.comb x0 (agg (Cert.KernelIdeal.Mat0.prod x0 x2) x1) (bias x3)
/-- Everything so far after layer 1: the previous columns with the new features appended. -/
def X1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) : (⟨S100000x128, .f32⟩ : BufTy).Contents (Elt Ideal) :=
  concatenate S100000x128 1 [⟨S100000x64, x0⟩, ⟨S100000x64, (c1 x0 x1 x2 x3)⟩] concatenates_S100000x64_S100000x64_S100000x128_d1

/-- The features after layer 2: the combine step of the previous features, the aggregated messages of the
    product of everything so far by the layer's weights, and the layer's bias row. -/
def c2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) : (⟨S100000x64, .f32⟩ : BufTy).Contents (Elt Ideal) :=
  Cert.KernelIdeal.CombSpec.comb (c1 x0 x1 x2 x3) (agg (Cert.KernelIdeal.Mat2.prod (X1 x0 x1 x2 x3) x4) x1) (bias x5)
/-- Everything so far after layer 2: the previous columns with the new features appended. -/
def X2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) : (⟨S100000x192, .f32⟩ : BufTy).Contents (Elt Ideal) :=
  concatenate S100000x192 1 [⟨S100000x128, (X1 x0 x1 x2 x3)⟩, ⟨S100000x64, (c2 x0 x1 x2 x3 x4 x5)⟩] concatenates_S100000x128_S100000x64_S100000x192_d1

/-- The features after layer 3: the combine step of the previous features, the aggregated messages of the
    product of everything so far by the layer's weights, and the layer's bias row. -/
def c3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) : (⟨S100000x64, .f32⟩ : BufTy).Contents (Elt Ideal) :=
  Cert.KernelIdeal.CombSpec.comb (c2 x0 x1 x2 x3 x4 x5) (agg (Cert.KernelIdeal.Mat4.prod (X2 x0 x1 x2 x3 x4 x5) x6) x1) (bias x7)
/-- Everything so far after layer 3: the previous columns with the new features appended. -/
def X3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) : (⟨S100000x256, .f32⟩ : BufTy).Contents (Elt Ideal) :=
  concatenate S100000x256 1 [⟨S100000x192, (X2 x0 x1 x2 x3 x4 x5)⟩, ⟨S100000x64, (c3 x0 x1 x2 x3 x4 x5 x6 x7)⟩] concatenates_S100000x192_S100000x64_S100000x256_d1

/-- The features after layer 4: the combine step of the previous features, the aggregated messages of the
    product of everything so far by the layer's weights, and the layer's bias row. -/
def c4 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) : (⟨S100000x64, .f32⟩ : BufTy).Contents (Elt Ideal) :=
  Cert.KernelIdeal.CombSpec.comb (c3 x0 x1 x2 x3 x4 x5 x6 x7) (agg (Cert.KernelIdeal.Mat6.prod (X3 x0 x1 x2 x3 x4 x5 x6 x7) x8) x1) (bias x9)
/-- Everything so far after layer 4: the previous columns with the new features appended. -/
def X4 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) : (⟨S100000x320, .f32⟩ : BufTy).Contents (Elt Ideal) :=
  concatenate S100000x320 1 [⟨S100000x256, (X3 x0 x1 x2 x3 x4 x5 x6 x7)⟩, ⟨S100000x64, (c4 x0 x1 x2 x3 x4 x5 x6 x7 x8 x9)⟩] concatenates_S100000x256_S100000x64_S100000x320_d1

/-- The features after layer 5: the combine step of the previous features, the aggregated messages of the
    product of everything so far by the layer's weights, and the layer's bias row. -/
def c5 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) (x10 : (⟨S320x64, .f32⟩ : BufTy).Contents (Elt Ideal)) (x11 : (⟨S64, .f32⟩ : BufTy).Contents (Elt Ideal)) : (⟨S100000x64, .f32⟩ : BufTy).Contents (Elt Ideal) :=
  Cert.KernelIdeal.CombSpec.comb (c4 x0 x1 x2 x3 x4 x5 x6 x7 x8 x9) (agg (Cert.KernelIdeal.Mat8.prod (X4 x0 x1 x2 x3 x4 x5 x6 x7 x8 x9) x10) x1) (bias x11)
/-- Everything so far after layer 5: the previous columns with the new features appended. -/
def X5 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) (x10 : (⟨S320x64, .f32⟩ : BufTy).Contents (Elt Ideal)) (x11 : (⟨S64, .f32⟩ : BufTy).Contents (Elt Ideal)) : (⟨S100000x384, .f32⟩ : BufTy).Contents (Elt Ideal) :=
  concatenate S100000x384 1 [⟨S100000x320, (X4 x0 x1 x2 x3 x4 x5 x6 x7 x8 x9)⟩, ⟨S100000x64, (c5 x0 x1 x2 x3 x4 x5 x6 x7 x8 x9 x10 x11)⟩] concatenates_S100000x320_S100000x64_S100000x384_d1

end Cert.Bridge

end
-- ==== Proof.KernelValue.lean ====
/-
  The kernel program's result array, as the function `Cert.Bridge.X5` of the twelve argument arrays.

  The last boundary's contents are the fold of one straight line of operations over the launch contents: the host
  stretches' operations and, in each region's place, the one operation the region acts as.  Reading that fold at the
  result buffer walks back through the line — an operation's own result buffer holds its function of its operands'
  contents, any other buffer what it held before — down to the argument buffers at launch.  What comes out is the
  layers' composition: five times product, gather–scale–scatter-add, combine, append.  (The inlined `@_where`'s three
  operations are read in their form at the buffers themselves, `whereOps`, so that what comes out is syntactically the
  composition of the same operations as the specification's and the closing comparison never opens an operation.)
-/
import proofs.«117244_j88579405512834_1_alg».proof.Proof.KernelRun
import proofs.«117244_j88579405512834_1_alg».proof.Proof.KSpec
import proofs.«117244_j88579405512834_1_alg».proof.Proof.LibCat2

noncomputable section

namespace Cert.KernelIdeal.KValue

open Cert.KernelIdeal Cert.KernelIdeal.Gen Cert.KernelIdeal.KRun
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 400000000 in
set_option maxRecDepth 65536 in
/-- The last boundary's contents at the result buffer: the five layers' composition of the launch contents of the
    arguments. -/
theorem W23_result (c : Dev nD) :
    W23 m ρ c (Proc.devRef .tc main_v112) = Cert.Bridge.X5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp (disch := decide) only [W23, W21, W19, W17, W15, W13, W11, W9, W7, W5, W3, W2, W1,
    W22_eq, W20_eq, W18_eq, W16_eq, W14_eq, W12_eq, W10_eq, W8_eq, W6_eq, W4_eq,
    op0, op1, op2, op3, op4, op5, op6, op7, op8, op9,
    hostOps0, hostOps0_1_eq, whereOps, hostOps0_2, hostOps1, hostOps2, hostOps3, hostOps4, hostOps5, hostOps6, hostOps7, hostOps8, hostOps9, hostOps10,
    after_cons, after_nil, Cert.Lib.cat2_fold,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

/-- The kernel program's run: every weakly fair execution terminates without a fault, the result array at
    `Cert.Bridge.X5` of the launch contents of the arguments, the arguments unchanged. -/
theorem run : θ_run defs (onTc (τ := τ) (main (F := Ideal))) ⟨m, fun _ => 0, ρ⟩ (fun r => ∀ c : Dev nD,
      r.2.mem ((c.tc : Thread nD τ).loc main_v112) = Cert.Bridge.X5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W23_result m ρ c), (h c).2⟩) (run_all m ρ)

end Cert.KernelIdeal.KValue

end
-- ==== Proof.BridgeEq.lean ====
/-
  The kernel's function of the arguments is the reference's, layer by layer.

  Two things differ between the programs inside a layer.  The product: the kernel's tiled matrix product and the
  reference's `dot_general` are, entry by entry, the same sum over the contracted axis.  The combine step: the kernel
  computes max ((x + a) + b, 0) with the bias as a one-row array read at (0, i₁), the reference
  max (x + (a + b), 0) with the bias broadcast over the rows; addition on the extended reals is associative (no
  finiteness is needed for that), and both read entry i₁ of the same bias vector.  Everything else — the index
  arithmetic on the edge list, the gathers, the scaling by the edge norms, the scatter-add, the appending of columns —
  is the same operation applied to equal operands, so equality passes through it.
-/
import proofs.«117244_j88579405512834_1_alg».proof.Proof.KSpec
import Idealize.ShloMosaic.Lib.Pipeline.Value
import Idealize.ShloMosaic.PureOps.Ideal.Laws

set_option maxRecDepth 16384

noncomputable section

namespace Cert.Bridge

open Cert.ReferenceIdeal Cert.ReferenceIdeal.Gen Cert.ReferenceIdeal.ReadP Idealize.ShloMosaic

/-- The combine step with the bias as a one-row array is the reference's two additions and its cut-off at zero:
    both read entry `i 1` of the bias vector, and (x + a) + b = x + (a + b) on the extended reals. -/
theorem comb_eq (x a : (⟨S100000x64, .f32⟩ : BufTy).Contents (Elt Ideal)) (b : (⟨S64, .f32⟩ : BufTy).Contents (Elt Ideal)) :
    Cert.KernelIdeal.CombSpec.comb x a (bias b)
      = maximumf (F := Ideal) (φ := .f32) (addf (F := Ideal) (φ := .f32) x (addf (F := Ideal) (φ := .f32) a (val_main_v47 (F := Ideal) b))) (val_main_call1_v0 (F := Ideal)) := by
  funext i
  have hb : bias b (Cert.KernelIdeal.CombSpec.bix i) = b (idx_main_v46 (idx_main_v47 i)) := by
    unfold bias
    refine shapeCast_apply b _ (Cert.KernelIdeal.CombSpec.bix i) (idx_main_v46 (idx_main_v47 i)) ?_
    rw [Shape.rowMajor_val_one, Shape.rowMajor_val_two]
    show (i 1).val = 0 * 64 + (i 1).val
    omega
  show max ((x i + a i) + bias b (Cert.KernelIdeal.CombSpec.bix i)) 0
    = max (x i + (a i + val_main_v47 (F := Ideal) b i)) (val_main_call1_v0 (F := Ideal) i)
  rw [hb, val_main_v47_apply, val_main_v46_apply, val_main_call1_v0_apply, val_main_call1_cst_apply, add_assoc]
  show _ = max _ (Ideal.ofBits .f32 0x00000000#32)
  rw [Ideal.ofBits_zero_f32]

/-- Layer 1's product is the reference's first `dot_general`: the same sum at every entry. -/
theorem prod1_eq (x0 : (⟨S100000x64, .f32⟩ : BufTy).Contents (Elt Ideal)) (x2 : (⟨S64x64, .f32⟩ : BufTy).Contents (Elt Ideal)) : Cert.KernelIdeal.Mat0.prod x0 x2 = val_main_v32 (F := Ideal) x0 x2 :=
  funext fun i => (val_main_v32_apply x0 x2 i).symm
theorem c1_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) : c1 x0 x1 x2 x3 = val_main_v50 (F := Ideal) x0 x1 x2 x3 := by
  unfold c1
  rw [prod1_eq, comb_eq]
  rfl
theorem X1_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) : X1 x0 x1 x2 x3 = val_main_v51 (F := Ideal) x0 x1 x2 x3 := by
  unfold X1
  rw [c1_eq]
  rfl

/-- Layer 2's product of everything so far is the reference's `dot_general` of the same array: the same sum at every entry. -/
theorem prod2_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) :
    Cert.KernelIdeal.Mat2.prod (val_main_v51 (F := Ideal) x0 x1 x2 x3) x4 = val_main_v52 (F := Ideal) x0 x1 x2 x3 x4 :=
  funext fun i => (val_main_v52_apply x0 x1 x2 x3 x4 i).symm
theorem c2_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) : c2 x0 x1 x2 x3 x4 x5 = val_main_v70 (F := Ideal) x0 x1 x2 x3 x4 x5 := by
  unfold c2
  rw [c1_eq, X1_eq, prod2_eq, comb_eq]
  rfl
theorem X2_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) : X2 x0 x1 x2 x3 x4 x5 = val_main_v71 (F := Ideal) x0 x1 x2 x3 x4 x5 := by
  unfold X2
  rw [X1_eq, c2_eq]
  rfl

/-- Layer 3's product of everything so far is the reference's `dot_general` of the same array: the same sum at every entry. -/
theorem prod3_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) :
    Cert.KernelIdeal.Mat4.prod (val_main_v71 (F := Ideal) x0 x1 x2 x3 x4 x5) x6 = val_main_v72 (F := Ideal) x0 x1 x2 x3 x4 x5 x6 :=
  funext fun i => (val_main_v72_apply x0 x1 x2 x3 x4 x5 x6 i).symm
theorem c3_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) : c3 x0 x1 x2 x3 x4 x5 x6 x7 = val_main_v90 (F := Ideal) x0 x1 x2 x3 x4 x5 x6 x7 := by
  unfold c3
  rw [c2_eq, X2_eq, prod3_eq, comb_eq]
  rfl
theorem X3_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) : X3 x0 x1 x2 x3 x4 x5 x6 x7 = val_main_v91 (F := Ideal) x0 x1 x2 x3 x4 x5 x6 x7 := by
  unfold X3
  rw [X2_eq, c3_eq]
  rfl

/-- Layer 4's product of everything so far is the reference's `dot_general` of the same array: the same sum at every entry. -/
theorem prod4_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) :
    Cert.KernelIdeal.Mat6.prod (val_main_v91 (F := Ideal) x0 x1 x2 x3 x4 x5 x6 x7) x8 = val_main_v92 (F := Ideal) x0 x1 x2 x3 x4 x5 x6 x7 x8 :=
  funext fun i => (val_main_v92_apply x0 x1 x2 x3 x4 x5 x6 x7 x8 i).symm
theorem c4_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) : c4 x0 x1 x2 x3 x4 x5 x6 x7 x8 x9 = val_main_v110 (F := Ideal) x0 x1 x2 x3 x4 x5 x6 x7 x8 x9 := by
  unfold c4
  rw [c3_eq, X3_eq, prod4_eq, comb_eq]
  rfl
theorem X4_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) : X4 x0 x1 x2 x3 x4 x5 x6 x7 x8 x9 = val_main_v111 (F := Ideal) x0 x1 x2 x3 x4 x5 x6 x7 x8 x9 := by
  unfold X4
  rw [X3_eq, c4_eq]
  rfl

/-- Layer 5's product of everything so far is the reference's `dot_general` of the same array: the same sum at every entry. -/
theorem prod5_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) (x10 : (⟨S320x64, .f32⟩ : BufTy).Contents (Elt Ideal)) :
    Cert.KernelIdeal.Mat8.prod (val_main_v111 (F := Ideal) x0 x1 x2 x3 x4 x5 x6 x7 x8 x9) x10 = val_main_v112 (F := Ideal) x0 x1 x2 x3 x4 x5 x6 x7 x8 x9 x10 :=
  funext fun i => (val_main_v112_apply x0 x1 x2 x3 x4 x5 x6 x7 x8 x9 x10 i).symm
theorem c5_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) (x10 : (⟨S320x64, .f32⟩ : BufTy).Contents (Elt Ideal)) (x11 : (⟨S64, .f32⟩ : BufTy).Contents (Elt Ideal)) : c5 x0 x1 x2 x3 x4 x5 x6 x7 x8 x9 x10 x11 = val_main_v130 (F := Ideal) x0 x1 x2 x3 x4 x5 x6 x7 x8 x9 x10 x11 := by
  unfold c5
  rw [c4_eq, X4_eq, prod5_eq, comb_eq]
  rfl
theorem X5_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S256x64, .f32⟩ : BufTy).Contents (Elt Ideal)) (x9 : (⟨S64, .f32⟩ : BufTy).Contents (Elt Ideal)) (x10 : (⟨S320x64, .f32⟩ : BufTy).Contents (Elt Ideal)) (x11 : (⟨S64, .f32⟩ : BufTy).Contents (Elt Ideal)) : X5 x0 x1 x2 x3 x4 x5 x6 x7 x8 x9 x10 x11 = val_main_v131 (F := Ideal) x0 x1 x2 x3 x4 x5 x6 x7 x8 x9 x10 x11 := by
  unfold X5
  rw [X4_eq, c5_eq]
  rfl

end Cert.Bridge

end
-- ==== Proof.lean ====
/-
  The five layers of a graph network, tiled kernel against plain array code: the certificate's five claims.

  Both programs take node features x [100000, 64], an edge list [2, 1600000] and five weight / bias pairs, and return
  the [100000, 384] array of the input features followed by each layer's features.  A layer multiplies everything so
  far by its weights, sends each node's row along every edge (and a self-loop) scaled by the symmetric degree norm,
  sums what arrives at each node, adds the previous features and the bias, and cuts off at zero.  The kernel program
  does the product and the final add–add–max in tiled regions (twenty row tiles of 5000), with the gather and the
  scatter-add between them on the host; the reference does everything on the host.

  On the extended reals the two agree exactly: the tiled product and `dot_general` are the same sums; the kernel adds
  (x + a) + b where the reference adds x + (a + b), and addition there is associative; every other operation is the
  same operation in both programs applied to equal operands.  No step uses finiteness of the inputs.

  Frames: the two kernel programs' are the generated ones; the reference's is its run with the result dropped.
  The idealization rewrote nothing, so `preserves` is trivial.  For `algebraic`, the kernel program's run ends with
  the result at `Cert.Bridge.X5` of the arguments (Proof/KernelValue.lean), the reference's at its own last stage,
  and the two are one function (Proof/BridgeEq.lean).
-/
import proofs.«117244_j88579405512834_1_alg».proof.Defs
import proofs.«117244_j88579405512834_1_alg».proof.Proof.Gen.Kernel
import proofs.«117244_j88579405512834_1_alg».proof.Proof.Gen.Kernel.Skeleton
import proofs.«117244_j88579405512834_1_alg».proof.Proof.Gen.Kernel.Launch
import proofs.«117244_j88579405512834_1_alg».proof.Proof.Gen.Kernel.Points
import proofs.«117244_j88579405512834_1_alg».proof.Proof.Gen.Kernel.Frame
import proofs.«117244_j88579405512834_1_alg».proof.Proof.Gen.KernelIdeal
import proofs.«117244_j88579405512834_1_alg».proof.Proof.Gen.KernelIdeal.Skeleton
import proofs.«117244_j88579405512834_1_alg».proof.Proof.Gen.KernelIdeal.Launch
import proofs.«117244_j88579405512834_1_alg».proof.Proof.Gen.KernelIdeal.Points
import proofs.«117244_j88579405512834_1_alg».proof.Proof.Gen.KernelIdeal.Frame
import proofs.«117244_j88579405512834_1_alg».proof.Proof.Gen.ReferenceIdeal
import proofs.«117244_j88579405512834_1_alg».proof.Proof.Gen.Pre_finite_inputs
import proofs.«117244_j88579405512834_1_alg».proof.Proof.RefRun
import proofs.«117244_j88579405512834_1_alg».proof.Proof.KernelValue
import proofs.«117244_j88579405512834_1_alg».proof.Proof.BridgeEq
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the twelve arguments both programs end with the same result array: the kernel
    program's is the five layers' composition `Cert.Bridge.X5` of its arguments, the reference's its last stage of its
    own arguments, and these are one function of equal arguments. -/
theorem algebraic : Cert.algebraic_KernelIdeal_ReferenceIdeal := by
  intro m ρ m' ρ' _ hagree
  refine ⟨fun c => Cert.Bridge.X5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [h0, h1, h2, h3, h4, h5, h6, h7, h8, h9, h10, h11]
  exact (Cert.Bridge.X5_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
